-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096 : Shape := ⟨1, ![4096]⟩
abbrev S4096x1 : Shape := ⟨2, ![4096, 1]⟩
abbrev S_ : Shape := ⟨0, ![]⟩
abbrev S4096x8192 : Shape := ⟨2, ![4096, 8192]⟩
abbrev S4096x256x1 : Shape := ⟨3, ![4096, 256, 1]⟩
abbrev S4096x256x2 : Shape := ⟨3, ![4096, 256, 2]⟩
abbrev S1x4096 : Shape := ⟨2, ![1, 4096]⟩
abbrev S4096x4096 : Shape := ⟨2, ![4096, 4096]⟩
abbrev S1024x2048 : Shape := ⟨2, ![1024, 2048]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 32
  | .vmem => 11
  | .smem => 0
  | _ => 0

abbrev bufTy : (tb : Table) → Fin (tcTables nBuf tb) → BufTy
  | .hbm, ⟨0, _⟩ => ⟨S4096x256, .i32⟩
  | .hbm, ⟨1, _⟩ => ⟨S4096, .i32⟩
  | .hbm, ⟨2, _⟩ => ⟨S4096x1, .i32⟩
  | .hbm, ⟨3, _⟩ => ⟨S_, .f32⟩
  | .hbm, ⟨4, _⟩ => ⟨S4096x8192, .f32⟩
  | .hbm, ⟨5, _⟩ => ⟨S_, .i32⟩
  | .hbm, ⟨6, _⟩ => ⟨S4096x1, .i32⟩
  | .hbm, ⟨7, _⟩ => ⟨S4096x1, .i1⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S4096x1, .i32⟩
  | .hbm, ⟨12, _⟩ => ⟨S_, .i32⟩
  | .hbm, ⟨13, _⟩ => ⟨S4096x256, .i32⟩
  | .hbm, ⟨14, _⟩ => ⟨S4096x256, .i1⟩
  | .hbm, ⟨15, _⟩ => ⟨S_, .i32⟩
  | .hbm, ⟨16, _⟩ => ⟨S4096x256, .i32⟩
  | .hbm, ⟨17, _⟩ => ⟨S4096x256, .i32⟩
  | .hbm, ⟨18, _⟩ => ⟨S4096x256, .i32⟩
  | .hbm, ⟨19, _⟩ => ⟨S4096x256, .i32⟩
  | .hbm, ⟨20, _⟩ => ⟨S4096x256x1, .i32⟩
  | .hbm, ⟨21, _⟩ => ⟨S4096x256x1, .i32⟩
  | .hbm, ⟨22, _⟩ => ⟨S4096x256x2, .i32⟩
  | .hbm, ⟨23, _⟩ => ⟨S_, .f32⟩
  | .hbm, ⟨24, _⟩ => ⟨S4096x256, .f32⟩
  | .hbm, ⟨25, _⟩ => ⟨S4096x8192, .f32⟩
  | .hbm, ⟨26, _⟩ => ⟨S_, .f32⟩
  | .hbm, ⟨27, _⟩ => ⟨S4096, .f32⟩
  | .hbm, ⟨28, _⟩ => ⟨S4096x8192, .bf16⟩
  | .hbm, ⟨29, _⟩ => ⟨S4096x1, .f32⟩
  | .hbm, ⟨30, _⟩ => ⟨S1x4096, .f32⟩
  | .hbm, ⟨31, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S4096_S4096x1_0 : S4096.BroadcastsInDim S4096x1 (![0] : Fin 1 → Fin S4096x1.rank)
  bcast_S_S4096x8192 : S_.BroadcastsInDim S4096x8192 (![] : Fin 0 → Fin S4096x8192.rank)
  bcast_S_S4096x1 : S_.BroadcastsInDim S4096x1 (![] : Fin 0 → Fin S4096x1.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  bcast_S4096x256_S4096x256x1_0_1 : S4096x256.BroadcastsInDim S4096x256x1 (![0, 1] : Fin 2 → Fin S4096x256x1.rank)
  concatenates_S4096x256x1_S4096x256x1_S4096x256x2_d2 : Shape.Concatenates [S4096x256x1, S4096x256x1] S4096x256x2 2
  reducesTo_S4096x8192_S4096_d1 : S4096x8192.ReducesTo [1] S4096
  h_S_ : 0 < S_.numel
  bitsLt_bf16_f32 : FTy.bits .bf16 < FTy.bits .f32
  shapeCasts_S4096_S4096x1 : S4096.ShapeCasts S4096x1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  scatter_S4096x8192_S4096x256x2_S4096x256_n_01_01_2_wf : ScatterDims.WF S4096x8192 S4096x256x2 S4096x256 [] [0, 1] [0, 1] 2
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x8192.size a
  hwx0_0 : ∀ i : grid0.Coords, EltTy.bits .bf16 = 32 ∨ (Rect.block (s := S4096x8192) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x8192.size a
  hwx0_1 : ∀ i : grid0.Coords, EltTy.bits .bf16 = 32 ∨ (Rect.block (s := S4096x8192) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def scatter_S4096x8192_S4096x256x2_S4096x256_n_01_01_2 : ScatterDims S4096x8192 S4096x256x2 S4096x256 where
  updateWindowDims := []
  insertedWindowDims := [0, 1]
  scatterDimsToOperandDims := [0, 1]
  indexVectorDim := 2
  wf := scatter_S4096x8192_S4096x256x2_S4096x256_n_01_01_2_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v20) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S4096x1 : Shape := ⟨2, ![4096, 1]⟩
abbrev S_ : Shape := ⟨0, ![]⟩
abbrev S4096x8192 : Shape := ⟨2, ![4096, 8192]⟩
abbrev S4096x256x1 : Shape := ⟨3, ![4096, 256, 1]⟩
abbrev S4096x256x2 : Shape := ⟨3, ![4096, 256, 2]⟩
abbrev S8192x4096 : Shape := ⟨2, ![8192, 4096]⟩
abbrev S4096x4096 : Shape := ⟨2, ![4096, 4096]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x256, .i32⟩
  | .hbm, ⟨1, _⟩ => ⟨S4096, .i32⟩
  | .hbm, ⟨2, _⟩ => ⟨S4096x1, .i32⟩
  | .hbm, ⟨3, _⟩ => ⟨S_, .f32⟩
  | .hbm, ⟨4, _⟩ => ⟨S4096x8192, .f32⟩
  | .hbm, ⟨5, _⟩ => ⟨S_, .i32⟩
  | .hbm, ⟨6, _⟩ => ⟨S4096x1, .i32⟩
  | .hbm, ⟨7, _⟩ => ⟨S4096x1, .i1⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S4096x1, .i32⟩
  | .hbm, ⟨12, _⟩ => ⟨S_, .i32⟩
  | .hbm, ⟨13, _⟩ => ⟨S4096x256, .i32⟩
  | .hbm, ⟨14, _⟩ => ⟨S4096x256, .i1⟩
  | .hbm, ⟨15, _⟩ => ⟨S_, .i32⟩
  | .hbm, ⟨16, _⟩ => ⟨S4096x256, .i32⟩
  | .hbm, ⟨17, _⟩ => ⟨S4096x256, .i32⟩
  | .hbm, ⟨18, _⟩ => ⟨S4096x256, .i32⟩
  | .hbm, ⟨19, _⟩ => ⟨S4096x256, .i32⟩
  | .hbm, ⟨20, _⟩ => ⟨S4096x256x1, .i32⟩
  | .hbm, ⟨21, _⟩ => ⟨S4096x256x1, .i32⟩
  | .hbm, ⟨22, _⟩ => ⟨S4096x256x2, .i32⟩
  | .hbm, ⟨23, _⟩ => ⟨S_, .f32⟩
  | .hbm, ⟨24, _⟩ => ⟨S4096x256, .f32⟩
  | .hbm, ⟨25, _⟩ => ⟨S4096x8192, .f32⟩
  | .hbm, ⟨26, _⟩ => ⟨S8192x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .i1⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .i1⟩
  | .hbm, ⟨43, _⟩ => ⟨S_, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S_, .f32⟩
  | .hbm, ⟨50, _⟩ => ⟨S4096x4096, .f32⟩
  | .hbm, ⟨51, _⟩ => ⟨S4096x4096, .f32⟩
  | _, _ => ⟨S4096x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x8192 : S_.BroadcastsInDim S4096x8192 (![] : Fin 0 → Fin S4096x8192.rank)
  bcast_S_S4096x1 : S_.BroadcastsInDim S4096x1 (![] : Fin 0 → Fin S4096x1.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  bcast_S4096x256_S4096x256x1_0_1 : S4096x256.BroadcastsInDim S4096x256x1 (![0, 1] : Fin 2 → Fin S4096x256x1.rank)
  concatenates_S4096x256x1_S4096x256x1_S4096x256x2_d2 : Shape.Concatenates [S4096x256x1, S4096x256x1] S4096x256x2 2
  transposes_S4096x8192_S8192x4096_1_0 : S4096x8192.Transposes [1, 0] S8192x4096
  reducesTo_S4096x8192_S4096_d1 : S4096x8192.ReducesTo [1] S4096
  h_S_ : 0 < S_.numel
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  scatter_S4096x8192_S4096x256x2_S4096x256_n_01_01_2_wf : ScatterDims.WF S4096x8192 S4096x256x2 S4096x256 [] [0, 1] [0, 1] 2
  dot_S4096x8192_S8192x4096_S4096x4096_1_0_0_1_n_n_wf : DotDims.WF S4096x8192 S8192x4096 S4096x4096 [1] [0] [0] [1] [] []

variable [Facts₀]

def scatter_S4096x8192_S4096x256x2_S4096x256_n_01_01_2 : ScatterDims S4096x8192 S4096x256x2 S4096x256 where
  updateWindowDims := []
  insertedWindowDims := [0, 1]
  scatterDimsToOperandDims := [0, 1]
  indexVectorDim := 2
  wf := scatter_S4096x8192_S4096x256x2_S4096x256_n_01_01_2_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf

class Facts : Prop extends Facts₀ where

variable [Facts]
-- ==== Proof.KTileBase.lean ====
/-
  The pairwise-similarity kernel: a 4 x 4 x 4 grid (row tile i, column tile j, vocabulary chunk k), a
  1024 x 1024 accumulator kept in scratch across the four chunks of one (i, j), reset at k = 0 and turned
  into the output tile at k = 3.  This module fixes the vocabulary the run is stated over: the contents of
  every array when the region is entered (the host prefix applied to the launch memory), each window's block
  at a grid point, the two branch conditions in closed form (k = 0 is "point = 0 mod 4", k = 3 is
  "point = 3 mod 4"), where the output window is idle, and the staging memrefs the body is called with.
-/
import proofs.«157818_j12704513261820_1_alg».proof.Proof.Gen.Kernel.Launch
import proofs.«157818_j12704513261820_1_alg».proof.Proof.Gen.Kernel.Skeleton
import proofs.«157818_j12704513261820_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The buffers' contents once the host prefix (presence matrix, row sizes, their two layouts) has run. -/
abbrev V0 (c : Dev nD) : Valuation τ sig (Elt F) := StableHlo.after hostOps0 (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is its host prefix followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: it is as launched when the region is entered. -/
theorem V_main_arg0 (c : Dev nD) : V m c main_arg0 = m ((c : Thread nD τ).loc main_arg0) := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not (unfetched, the block
    index has not moved): for any proof data over these arrays whose body leaves the input in place.  One
    statement per input window: the chunk of rows i (window 0), the chunk of rows j (window 1), the sizes of
    rows i as a column (window 2), the sizes of rows j as a row (window 3). -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branches, decided over the grid -/

/-- "This is the first vocabulary chunk" as the body computes it. -/
abbrev isFirst (i : grid0.Coords) : Prop :=
  (Scalar.cmpi .ne (Scalar.extui (Scalar.cmpi .eq (BitVec.ofNat 32 (i 2).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the last vocabulary chunk" as the body computes it. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the output window is idle -/

theorem out_idle : ∀ t : Fin cfg0.N, ¬isLast (grid0.coords t) → cfg0.idle 4 (grid0.coords t) = true := by decide +kernel
theorem out_noFlush : ∀ t : Fin cfg0.N, ¬isLast (grid0.coords t) → (cfg0.win 4).flush t = false := by decide +kernel
theorem out_live : ∀ t : Fin cfg0.N, isLast (grid0.coords t) → cfg0.idle 4 (grid0.coords t) = false := by decide +kernel

/-! ## The memrefs the body is called with -/

abbrev mA (t : Fin cfg0.N) : Memref sig .tc .vmem S1024x2048 .bf16 := win0_0.stage (cfg0.slots t 0)
abbrev hA (t : Fin cfg0.N) : (mA t).IsWhole := hstage0_0 ((cfg0.slots t 0).cast nbuf0_0)
abbrev mB (t : Fin cfg0.N) : Memref sig .tc .vmem S1024x2048 .bf16 := win0_1.stage (cfg0.slots t 1)
abbrev hB (t : Fin cfg0.N) : (mB t).IsWhole := hstage0_1 ((cfg0.slots t 1).cast nbuf0_1)
abbrev mC (t : Fin cfg0.N) : Memref sig .tc .vmem S1024x1 .f32 := win0_2.stage (cfg0.slots t 2)
abbrev hC (t : Fin cfg0.N) : (mC t).IsWhole := hstage0_2 ((cfg0.slots t 2).cast nbuf0_2)
abbrev mR (t : Fin cfg0.N) : Memref sig .tc .vmem S1x1024 .f32 := win0_3.stage (cfg0.slots t 3)
abbrev hR (t : Fin cfg0.N) : (mR t).IsWhole := hstage0_3 ((cfg0.slots t 3).cast nbuf0_3)
abbrev mO (t : Fin cfg0.N) : Memref sig .tc .vmem S1024x1024 .f32 := win0_4.stage (cfg0.slots t 4)
abbrev hO (t : Fin cfg0.N) : (mO t).IsWhole := hstage0_4 ((cfg0.slots t 4).cast nbuf0_4)
/-- The accumulator: a whole scoped buffer of the kernel's own. -/
abbrev mAcc : Memref sig .tc .vmem S1024x1024 .f32 := Memref.whole cc0_scratch0
/-- Views through which the output tile's and the accumulator's contents are stated. -/
abbrev vO : View sig .tc .vmem S1024x1024 .f32 := (Memref.whole cc0_stg4_0 : Memref sig .tc .vmem S1024x1024 .f32).view
abbrev vAcc : View sig .tc .vmem S1024x1024 .f32 := mAcc.view

/-- The region's standing invariant with the accumulator as a memref owned at some contents. -/
theorem PhiA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.Kernel.Tile

end
-- ==== Proof.KTileRunFirst.lean ====
/-
  The body at a point with k = 0 (the first branch taken, the second not): the accumulator, found at anything,
  is overwritten with zeros and then with zeros plus this chunk's product; the inputs are left as found and the
  output tile, which this point does not touch, is handed back as found.  The stores into the accumulator are
  recorded as the list of pieces the symbolic run leaves (latest first).
-/
import proofs.«157818_j12704513261820_1_alg».proof.Proof.KTileBase

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : isFirst i) (hc2 : ¬isLast i)
    (xa : Vec F S1024x2048 .bf16) (xb : Vec F S1024x2048 .bf16) (xc : Vec F S1024x1 .f32) (xr : Vec F S1x1024 .f32) :
    { LS : List (View.Piece (Elt F) S1024x1024 .f32) //
      ∀ (xo : Vec F S1024x1024 .f32) (E : Set ℕ) (K : PUnit → sProp 𝕄),
        iprop(owns (c : Thread nD τ) a3 fullShare xa ∗ owns (c : Thread nD τ) a4 fullShare xb ∗ owns (c : Thread nD τ) a5 fullShare xc ∗ owns (c : Thread nD τ) a6 fullShare xr ∗ owns (c : Thread nD τ) a7 fullShare xo ∗ (∃ d, owns (c : Thread nD τ) a8 fullShare d)
            ∗ (iprop(owns (c : Thread nD τ) a3 fullShare xa ∗ owns (c : Thread nD τ) a4 fullShare xb ∗ owns (c : Thread nD τ) a5 fullShare xc ∗ owns (c : Thread nD τ) a6 fullShare xr ∗ owns (c : Thread nD τ) a7 fullShare xo ∗ (∃ f, a8.view.loc (c : Thread nD τ) ↦[a8.view.set]{fullShare} a8.view.writes (Elt F) f LS)) -∗ K ⟨⟩))
          ⊢ wp frame (wpE (defs₀ (F := F)) Variants.none c none) E (cc0__jaccard_kernel i a3 h3 a4 h4 a5 h5 a6 h6 a7 h7 a8 h8) K } := by
  refine ⟨?_, fun xo E K => ?run⟩
  case run =>
    simp only [cc0__jaccard_kernel_eq_skeleton]; unfold cc0__jaccard_kernel_skel
    unfold owns
    iintro ⟨⟨%fa, %hfa, HA⟩, ⟨%fb, %hfb, HB⟩, ⟨%fc, %hfc, HC⟩, ⟨%fr, %hfr, HR⟩, ⟨%fo, %hfo, HO⟩, ⟨%ds, %fs, -, HS⟩, Hk⟩
    obtain rfl := h3.eq_unread hfa; obtain rfl := h4.eq_unread hfb; obtain rfl := h5.eq_unread hfc
    obtain rfl := h6.eq_unread hfr; obtain rfl := h7.eq_unread hfo
    sl_exec (disch := first | exact hc1 | exact hc2)
    sl_step
    iapply Hk
    isplitl [HA]
    · iexists _; isplitr; · ipureintro; exact h3.read_unread _
      iexact HA
    isplitl [HB]
    · iexists _; isplitr; · ipureintro; exact h4.read_unread _
      iexact HB
    isplitl [HC]
    · iexists _; isplitr; · ipureintro; exact h5.read_unread _
      iexact HC
    isplitl [HR]
    · iexists _; isplitr; · ipureintro; exact h6.read_unread _
      iexact HR
    isplitl [HO]
    · iexists _; isplitr; · ipureintro; exact h7.read_unread _
      iexact HO
    iexists _; iexact HS

end Cert.Kernel.Tile

end
-- ==== Proof.KTileRunMid.lean ====
/-
  The body at a point with k = 1 or k = 2 (neither branch taken): the accumulator, found at what the point
  before left, gets this chunk's product added; inputs and the untouched output tile are handed back as found.
-/
import proofs.«157818_j12704513261820_1_alg».proof.Proof.KTileRunFirst

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : ¬isLast i)
    (xa : Vec F S1024x2048 .bf16) (xb : Vec F S1024x2048 .bf16) (xc : Vec F S1024x1 .f32) (xr : Vec F S1x1024 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) a3 fullShare xa ∗ owns (c : Thread nD τ) a4 fullShare xb ∗ owns (c : Thread nD τ) a5 fullShare xc ∗ owns (c : Thread nD τ) a6 fullShare xr ∗ owns (c : Thread nD τ) a7 fullShare xo ∗ owns (c : Thread nD τ) a8 fullShare xs
            ∗ (iprop(owns (c : Thread nD τ) a3 fullShare xa ∗ owns (c : Thread nD τ) a4 fullShare xb ∗ owns (c : Thread nD τ) a5 fullShare xc ∗ owns (c : Thread nD τ) a6 fullShare xr ∗ owns (c : Thread nD τ) a7 fullShare xo ∗ (∃ f, a8.view.loc (c : Thread nD τ) ↦[a8.view.set]{fullShare} a8.view.writes (Elt F) f LS)) -∗ K ⟨⟩))
          ⊢ wp frame (wpE (defs₀ (F := F)) Variants.none c none) E (cc0__jaccard_kernel i a3 h3 a4 h4 a5 h5 a6 h6 a7 h7 a8 h8) K } := by
  refine ⟨?_, fun xo E K => ?run⟩
  case run =>
    simp only [cc0__jaccard_kernel_eq_skeleton]; unfold cc0__jaccard_kernel_skel
    unfold owns
    iintro ⟨⟨%fa, %hfa, HA⟩, ⟨%fb, %hfb, HB⟩, ⟨%fc, %hfc, HC⟩, ⟨%fr, %hfr, HR⟩, ⟨%fo, %hfo, HO⟩, ⟨%fs, %hfs, HS⟩, Hk⟩
    obtain rfl := h3.eq_unread hfa; obtain rfl := h4.eq_unread hfb; obtain rfl := h5.eq_unread hfc
    obtain rfl := h6.eq_unread hfr; obtain rfl := h7.eq_unread hfo; obtain rfl := h8.eq_unread hfs
    sl_exec (disch := first | exact hc1 | exact hc2)
    sl_step
    iapply Hk
    isplitl [HA]
    · iexists _; isplitr; · ipureintro; exact h3.read_unread _
      iexact HA
    isplitl [HB]
    · iexists _; isplitr; · ipureintro; exact h4.read_unread _
      iexact HB
    isplitl [HC]
    · iexists _; isplitr; · ipureintro; exact h5.read_unread _
      iexact HC
    isplitl [HR]
    · iexists _; isplitr; · ipureintro; exact h6.read_unread _
      iexact HR
    isplitl [HO]
    · iexists _; isplitr; · ipureintro; exact h7.read_unread _
      iexact HO
    iexists _; iexact HS

end Cert.Kernel.Tile

end
-- ==== Proof.KTileRunLast.lean ====
/-
  The body at a point with k = 3 (the second branch taken, the first not): the last chunk's product is added
  to the accumulator, and the output tile, found at anything, is overwritten with the similarity computed from
  the finished accumulator and the two size vectors.  Both buffers' stores are recorded as pieces.
-/
import proofs.«157818_j12704513261820_1_alg».proof.Proof.KTileRunMid

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i)
    (xa : Vec F S1024x2048 .bf16) (xb : Vec F S1024x2048 .bf16) (xc : Vec F S1024x1 .f32) (xr : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a3 fullShare xa ∗ owns (c : Thread nD τ) a4 fullShare xb ∗ owns (c : Thread nD τ) a5 fullShare xc ∗ owns (c : Thread nD τ) a6 fullShare xr ∗ (∃ d, owns (c : Thread nD τ) a7 fullShare d) ∗ owns (c : Thread nD τ) a8 fullShare xs
            ∗ (iprop(owns (c : Thread nD τ) a3 fullShare xa ∗ owns (c : Thread nD τ) a4 fullShare xb ∗ owns (c : Thread nD τ) a5 fullShare xc ∗ owns (c : Thread nD τ) a6 fullShare xr ∗ (∃ f, a7.view.loc (c : Thread nD τ) ↦[a7.view.set]{fullShare} a7.view.writes (Elt F) f LO) ∗ (∃ f, a8.view.loc (c : Thread nD τ) ↦[a8.view.set]{fullShare} a8.view.writes (Elt F) f LS)) -∗ K ⟨⟩))
          ⊢ wp frame (wpE (defs₀ (F := F)) Variants.none c none) E (cc0__jaccard_kernel i a3 h3 a4 h4 a5 h5 a6 h6 a7 h7 a8 h8) K } := by
  refine ⟨?_, ?_, fun E K => ?run⟩
  case run =>
    simp only [cc0__jaccard_kernel_eq_skeleton]; unfold cc0__jaccard_kernel_skel
    unfold owns
    iintro ⟨⟨%fa, %hfa, HA⟩, ⟨%fb, %hfb, HB⟩, ⟨%fc, %hfc, HC⟩, ⟨%fr, %hfr, HR⟩, ⟨%d7, %fo, -, HO⟩, ⟨%fs, %hfs, HS⟩, Hk⟩
    obtain rfl := h3.eq_unread hfa; obtain rfl := h4.eq_unread hfb; obtain rfl := h5.eq_unread hfc
    obtain rfl := h6.eq_unread hfr; obtain rfl := h8.eq_unread hfs
    sl_exec (disch := first | exact hc1 | exact hc2)
    sl_step
    iapply Hk
    isplitl [HA]
    · iexists _; isplitr; · ipureintro; exact h3.read_unread _
      iexact HA
    isplitl [HB]
    · iexists _; isplitr; · ipureintro; exact h4.read_unread _
      iexact HB
    isplitl [HC]
    · iexists _; isplitr; · ipureintro; exact h5.read_unread _
      iexact HC
    isplitl [HR]
    · iexists _; isplitr; · ipureintro; exact h6.read_unread _
      iexact HR
    isplitl [HO]; · iexists _; iexact HO
    iexists _; iexact HS

end Cert.Kernel.Tile

end
-- ==== Proof.KTileFrame.lean ====
/-
  What the accumulator and the output tile hold after each grid point, the region's invariant, the proof data of
  the pipeline and the body obligation.

  After point t (tile (i, j), chunk k = t mod 4) the accumulator holds, by recursion on t: at k = 0 the pieces the
  first-chunk run leaves (zeros, then zeros plus the product of chunk 0); at k = 1, 2 the mid run's pieces over what
  point t - 1 left; at k = 3 the last run's.  The output tile is stored only at k = 3 (the last run's pieces, which
  depend on what point t - 1 left in the accumulator); elsewhere the window is idle and not written back, and its
  entry in the table is a placeholder nothing reads.  The invariant before point 0 is the scratch buffer at anything;
  before any later point, the scratch buffer at what the point before left.
-/
import proofs.«157818_j12704513261820_1_alg».proof.Proof.KTileRunLast

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover the buffers, and what they leave -/

theorem acc_cover_first (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : isFirst i) (hc2 : ¬isLast i) (xa : Vec F S1024x2048 .bf16) (xb : Vec F S1024x2048 .bf16) (xc : Vec F S1024x1 .f32) (xr : Vec F S1x1024 .f32) (y : S1024x1024.Idx) :
    ∃ pc ∈ (runFirst c i a3 h3 a4 h4 a5 h5 a6 h6 a7 h7 a8 h8 hc1 hc2 xa xb xc xr).1, y ∈ pc.1.set :=
  View.cover_of_tiledL (runFirst c i a3 h3 a4 h4 a5 h5 a6 h6 a7 h7 a8 h8 hc1 hc2 xa xb xc xr).1 S1024x1024.size (by sl_kernel_rfl) y

/-- The accumulator after a first-chunk point. -/
def accFirst (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : isFirst i) (hc2 : ¬isLast i) (xa : Vec F S1024x2048 .bf16) (xb : Vec F S1024x2048 .bf16) (xc : Vec F S1024x1 .f32) (xr : Vec F S1x1024 .f32) : Vec F S1024x1024 .f32 :=
  vAcc.read (Elt F) (vAcc.writes (Elt F) vAcc.junk (runFirst c i a3 h3 a4 h4 a5 h5 a6 h6 a7 h7 a8 h8 hc1 hc2 xa xb xc xr).1)

theorem acc_cover_mid (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : ¬isLast i) (xa : Vec F S1024x2048 .bf16) (xb : Vec F S1024x2048 .bf16) (xc : Vec F S1024x1 .f32) (xr : Vec F S1x1024 .f32) (xs : Vec F S1024x1024 .f32) (y : S1024x1024.Idx) :
    ∃ pc ∈ (runMid c i a3 h3 a4 h4 a5 h5 a6 h6 a7 h7 a8 h8 hc1 hc2 xa xb xc xr xs).1, y ∈ pc.1.set :=
  View.cover_of_tiledL (runMid c i a3 h3 a4 h4 a5 h5 a6 h6 a7 h7 a8 h8 hc1 hc2 xa xb xc xr xs).1 S1024x1024.size (by sl_kernel_rfl) y

/-- The accumulator after a middle-chunk point, over what the point before left (`xs`). -/
def accMid (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : ¬isLast i) (xa : Vec F S1024x2048 .bf16) (xb : Vec F S1024x2048 .bf16) (xc : Vec F S1024x1 .f32) (xr : Vec F S1x1024 .f32) (xs : Vec F S1024x1024 .f32) : Vec F S1024x1024 .f32 :=
  vAcc.read (Elt F) (vAcc.writes (Elt F) vAcc.junk (runMid c i a3 h3 a4 h4 a5 h5 a6 h6 a7 h7 a8 h8 hc1 hc2 xa xb xc xr xs).1)

theorem acc_cover_last (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) (y : S1024x1024.Idx) :
    ∃ pc ∈ (runLast c i a3 h3 a4 h4 a5 h5 a6 h6 a7 h7 a8 h8 hc1 hc2 xa xb xc xr xs).2.1, y ∈ pc.1.set :=
  View.cover_of_tiledL (runLast c i a3 h3 a4 h4 a5 h5 a6 h6 a7 h7 a8 h8 hc1 hc2 xa xb xc xr xs).2.1 S1024x1024.size (by sl_kernel_rfl) y

/-- The accumulator after a last-chunk point. -/
def accLast (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) : Vec F S1024x1024 .f32 :=
  vAcc.read (Elt F) (vAcc.writes (Elt F) vAcc.junk (runLast c i a3 h3 a4 h4 a5 h5 a6 h6 a7 h7 a8 h8 hc1 hc2 xa xb xc xr xs).2.1)

theorem out_cover_last (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) (y : S1024x1024.Idx) :
    ∃ pc ∈ (runLast c i a3 h3 a4 h4 a5 h5 a6 h6 a7 h7 a8 h8 hc1 hc2 xa xb xc xr xs).1, y ∈ pc.1.set :=
  View.cover_of_tiledL (runLast c i a3 h3 a4 h4 a5 h5 a6 h6 a7 h7 a8 h8 hc1 hc2 xa xb xc xr xs).1 S1024x1024.size (by sl_kernel_rfl) y

/-- The output tile after a last-chunk point. -/
def outLast (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) : Vec F S1024x1024 .f32 :=
  vO.read (Elt F) (vO.writes (Elt F) vO.junk (runLast c i a3 h3 a4 h4 a5 h5 a6 h6 a7 h7 a8 h8 hc1 hc2 xa xb xc xr xs).1)

/-! ## Point by point -/

/-- Contents nothing reads: the output tile's table entry at a point that does not store it. -/
def unread : Vec F S1024x1024 .f32 := vO.read (Elt F) vO.junk

/-- One point: (output tile, accumulator) after point `t`, given what the accumulator held before it. -/
def stepAt (c : Dev nD) (t : Fin cfg0.N) (prev : Vec F S1024x1024 .f32) : Vec F S1024x1024 .f32 × Vec F S1024x1024 .f32 :=
  if h0 : t.val % 4 = 0 then
    (unread, accFirst c (grid0.coords t) (mA t) (hA t) (mB t) (hB t) (mC t) (hC t) (mR t) (hR t) (mO t) (hO t) mAcc (Memref.isWhole_whole _) ((isFirst_iff t).mpr h0) (fun h => by have := (isLast_iff t).mp h; omega) (iblk m c 0 t) (iblk m c 1 t) (iblk m c 2 t) (iblk m c 3 t))
  else if h3 : t.val % 4 = 3 then
    (outLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) prev,
     accLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) prev)
  else
    (unread, accMid c (grid0.coords t) (mA t) (hA t) (mB t) (hB t) (mC t) (hC t) (mR t) (hR t) (mO t) (hO t) mAcc (Memref.isWhole_whole _) (fun h => h0 ((isFirst_iff t).mp h)) (fun h => h3 ((isLast_iff t).mp h)) (iblk m c 0 t) (iblk m c 1 t) (iblk m c 2 t) (iblk m c 3 t) prev)

/-- (output tile, accumulator) after point `n`, by recursion on the point. -/
def outsAt (c : Dev nD) : (n : ℕ) → n < cfg0.N → Vec F S1024x1024 .f32 × Vec F S1024x1024 .f32
  | 0, hn => stepAt m c ⟨0, hn⟩ unread
  | n + 1, hn => stepAt m c ⟨n + 1, hn⟩ (outsAt c n (Nat.lt_of_succ_lt hn)).2

theorem outsAt_zero (c : Dev nD) (t : Fin cfg0.N) (ht : t.val = 0) : outsAt m c t.val t.isLt = stepAt m c t unread := by
  obtain ⟨n, hn⟩ := t
  cases n with
  | zero => rfl
  | succ n => exact absurd ht (Nat.succ_ne_zero n)

theorem outsAt_pos (c : Dev nD) (t : Fin cfg0.N) (ht : t.val ≠ 0) :
    outsAt m c t.val t.isLt = stepAt m c t (outsAt m c (t.val - 1) (Nat.lt_of_le_of_lt (Nat.sub_le _ _) t.isLt)).2 := by
  obtain ⟨n, hn⟩ := t
  cases n with
  | zero => exact absurd rfl ht
  | succ n => rfl

theorem stepAt_first (c : Dev nD) (t : Fin cfg0.N) (prev : Vec F S1024x1024 .f32) (h0 : t.val % 4 = 0) (h3 : ¬t.val % 4 = 3) :
    stepAt m c t prev = (unread, accFirst c (grid0.coords t) (mA t) (hA t) (mB t) (hB t) (mC t) (hC t) (mR t) (hR t) (mO t) (hO t) mAcc (Memref.isWhole_whole _) ((isFirst_iff t).mpr h0) (fun h => h3 ((isLast_iff t).mp h)) (iblk m c 0 t) (iblk m c 1 t) (iblk m c 2 t) (iblk m c 3 t)) := by
  unfold stepAt; rw [dif_pos h0]

theorem stepAt_last (c : Dev nD) (t : Fin cfg0.N) (prev : Vec F S1024x1024 .f32) (h0 : ¬t.val % 4 = 0) (h3 : t.val % 4 = 3) :
    stepAt m c t prev = (outLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) prev,
     accLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) prev) := by
  unfold stepAt; rw [dif_neg h0, dif_pos h3]

theorem stepAt_mid (c : Dev nD) (t : Fin cfg0.N) (prev : Vec F S1024x1024 .f32) (h0 : ¬t.val % 4 = 0) (h3 : ¬t.val % 4 = 3) :
    stepAt m c t prev = (unread, accMid c (grid0.coords t) (mA t) (hA t) (mB t) (hB t) (mC t) (hC t) (mR t) (hR t) (mO t) (hO t) mAcc (Memref.isWhole_whole _) (fun h => h0 ((isFirst_iff t).mp h)) (fun h => h3 ((isLast_iff t).mp h)) (iblk m c 0 t) (iblk m c 1 t) (iblk m c 2 t) (iblk m c 3 t) prev) := by
  unfold stepAt; rw [dif_neg h0, dif_neg h3]

/-- At a first-chunk point nothing of the point before is read. -/
theorem outsAt_first (c : Dev nD) (t : Fin cfg0.N) (h0 : t.val % 4 = 0) (h3 : ¬t.val % 4 = 3) :
    outsAt m c t.val t.isLt = (unread, accFirst c (grid0.coords t) (mA t) (hA t) (mB t) (hB t) (mC t) (hC t) (mR t) (hR t) (mO t) (hO t) mAcc (Memref.isWhole_whole _) ((isFirst_iff t).mpr h0) (fun h => h3 ((isLast_iff t).mp h)) (iblk m c 0 t) (iblk m c 1 t) (iblk m c 2 t) (iblk m c 3 t)) := by
  by_cases hz : t.val = 0
  · rw [outsAt_zero m c t hz, stepAt_first m c t _ h0 h3]
  · rw [outsAt_pos m c t hz, stepAt_first m c t _ h0 h3]

/-! ## The invariant -/

/-- Before point `n`: the scratch buffer at anything (n = 0), or at what point n - 1 left in it. -/
def PhiS (c : Dev nD) : (n : ℕ) → n ≤ cfg0.N → sProp 𝕄
  | 0, _ => iprop(∃ d, owns (c : Thread nD τ) mAcc fullShare d)
  | n + 1, hn => owns (c : Thread nD τ) mAcc fullShare ((outsAt m c n hn).2)

theorem PhiS_zero (c : Dev nD) (n : ℕ) (h : n ≤ cfg0.N) (hz : n = 0) :
    PhiS m c n h = iprop(∃ d, owns (c : Thread nD τ) mAcc fullShare d) := by
  subst hz; rfl

theorem PhiS_succ (c : Dev nD) (n : ℕ) (hn : n < cfg0.N) :
    PhiS m c (n + 1) hn = owns (c : Thread nD τ) mAcc fullShare ((outsAt m c n hn).2) := rfl

theorem PhiS_pos (c : Dev nD) (n : ℕ) (h : n ≤ cfg0.N) (hz : n ≠ 0) :
    PhiS m c n h = owns (c : Thread nD τ) mAcc fullShare ((outsAt m c (n - 1) (by omega)).2) := by
  cases n with
  | zero => exact absurd rfl hz
  | succ n => rfl

/-! ## The proof data -/

/-- The arrays as the region finds them; after the body each input buffer at its block and the output's at the
    table above; the presence matrix, read by two windows, held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mA t) fullShare ((dats m 0 c).before 0 t d))
    ∗ (∃ d, owns (c : Thread nD τ) (mB t) fullShare ((dats m 0 c).before 1 t d))
    ∗ (∃ d, owns (c : Thread nD τ) (mC t) fullShare ((dats m 0 c).before 2 t d))
    ∗ (∃ d, owns (c : Thread nD τ) (mR t) fullShare ((dats m 0 c).before 3 t d))
    ∗ (∃ d, owns (c : Thread nD τ) (mO t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (mA t) fullShare (iblk m c 0 t) := by
  rw [show (dats m 0 c).leavesExact 0 t = owns (c : Thread nD τ) (mA t) fullShare ((dats m 0 c).after 0 t) from rfl, after0]
theorem leaves_in1 (c : Dev nD) (t : Fin cfg0.N) : (dats m 0 c).leavesExact 1 t = owns (c : Thread nD τ) (mB t) fullShare (iblk m c 1 t) := by
  rw [show (dats m 0 c).leavesExact 1 t = owns (c : Thread nD τ) (mB t) fullShare ((dats m 0 c).after 1 t) from rfl, after1]
theorem leaves_in2 (c : Dev nD) (t : Fin cfg0.N) : (dats m 0 c).leavesExact 2 t = owns (c : Thread nD τ) (mC t) fullShare (iblk m c 2 t) := by
  rw [show (dats m 0 c).leavesExact 2 t = owns (c : Thread nD τ) (mC t) fullShare ((dats m 0 c).after 2 t) from rfl, after2]
theorem leaves_in3 (c : Dev nD) (t : Fin cfg0.N) : (dats m 0 c).leavesExact 3 t = owns (c : Thread nD τ) (mR t) fullShare (iblk m c 3 t) := by
  rw [show (dats m 0 c).leavesExact 3 t = owns (c : Thread nD τ) (mR t) fullShare ((dats m 0 c).after 3 t) from rfl, after3]

set_option maxHeartbeats 4800000 in
/-- The body at any point: the inputs' buffers hold their blocks; the point's chunk index says which of the three
    runs applies; the invariant hands the run the accumulator at what the point before left (at anything, where the
    run overwrites it first) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  by_cases h0 : t.val % 4 = 0
  · have h3 : ¬t.val % 4 = 3 := by omega
    rw [Dat.leavesExact_idle (dats m 0 c) 4 t (out_idle t (fun h => h3 ((isLast_iff t).mp h))) (out_noFlush t (fun h => h3 ((isLast_iff t).mp h)))]
    rw [outsAt_first m c t h0 h3]
    unfold accFirst; (try dsimp only)
    have hrun := (runFirst c (grid0.coords t) (mA t) (hA t) (mB t) (hB t) (mC t) (hC t) (mR t) (hR t) (mO t) (hO t) mAcc (Memref.isWhole_whole _) ((isFirst_iff t).mpr h0) (fun h => h3 ((isLast_iff t).mp h)) (iblk m c 0 t) (iblk m c 1 t) (iblk m c 2 t) (iblk m c 3 t)).2
    have hcov := acc_cover_first c (grid0.coords t) (mA t) (hA t) (mB t) (hB t) (mC t) (hC t) (mR t) (hR t) (mO t) (hO t) mAcc (Memref.isWhole_whole _) ((isFirst_iff t).mpr h0) (fun h => h3 ((isLast_iff t).mp h)) (iblk m c 0 t) (iblk m c 1 t) (iblk m c 2 t) (iblk m c 3 t)
    have hpre : (dats m 0 c).Φ t.castSucc ⊢ iprop(∃ d, owns (c : Thread nD τ) mAcc fullShare d) := by
      by_cases hz : t.val = 0
      · rw [Phi_castSucc m c t, PhiS_zero m c _ _ hz]
      · rw [Phi_castSucc m c t, PhiS_pos m c _ _ hz]
        iintro HS; iexists _; iexact HS
    iintro ⟨HS, Ho, ⟨%d0, H0⟩, ⟨%d1, H1⟩, ⟨%d2, H2⟩, ⟨%d3, H3⟩, ⟨%d4, H4⟩⟩
    iapply (hrun _ Set.univ _)
    isplitl [H0]; · iexact H0
    isplitl [H1]; · iexact H1
    isplitl [H2]; · iexact H2
    isplitl [H3]; · iexact H3
    isplitl [H4]; · iexact H4
    isplitl [HS]; · iapply hpre; iexact HS
    iintro ⟨H0, H1, H2, H3, H4, ⟨%es, HS⟩⟩
    isplitl [HS]
    · unfold owns; iexists _; isplitr
      swap; · iexact HS
      ipureintro; exact View.read_writes_of_cover _ _ _ _ _ hcov
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [Phi_castSucc m c t, PhiS_pos m c _ _ hz, outsAt_pos m c t hz]
    by_cases h3 : t.val % 4 = 3
    · rw [show (dats m 0 c).leavesExact 4 t = owns (c : Thread nD τ) (mO t) fullShare ((dats m 0 c).after 4 t) from by
        unfold Dat.leavesExact; rw [out_live t ((isLast_iff t).mpr h3)], after4, outsAt_pos m c t hz]
      rw [stepAt_last m c t _ h0 h3]
      unfold outLast accLast; (try dsimp only)
      have hrun := (runLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) (outsAt m c (t.val - 1) (Nat.lt_of_le_of_lt (Nat.sub_le _ _) t.isLt)).2).2.2
      have hcovS := acc_cover_last c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) (outsAt m c (t.val - 1) (Nat.lt_of_le_of_lt (Nat.sub_le _ _) t.isLt)).2
      have hcovO := out_cover_last c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) (outsAt m c (t.val - 1) (Nat.lt_of_le_of_lt (Nat.sub_le _ _) t.isLt)).2
      iintro ⟨HS, Ho, ⟨%d0, H0⟩, ⟨%d1, H1⟩, ⟨%d2, H2⟩, ⟨%d3, H3⟩, ⟨%d4, H4⟩⟩
      iapply (hrun Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ hcovS
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ hcovO
    · rw [Dat.leavesExact_idle (dats m 0 c) 4 t (out_idle t (fun h => h3 ((isLast_iff t).mp h))) (out_noFlush t (fun h => h3 ((isLast_iff t).mp h)))]
      rw [stepAt_mid m c t _ h0 h3]
      unfold accMid; (try dsimp only)
      have hrun := (runMid c (grid0.coords t) (mA t) (hA t) (mB t) (hB t) (mC t) (hC t) (mR t) (hR t) (mO t) (hO t) mAcc (Memref.isWhole_whole _) (fun h => h0 ((isFirst_iff t).mp h)) (fun h => h3 ((isLast_iff t).mp h)) (iblk m c 0 t) (iblk m c 1 t) (iblk m c 2 t) (iblk m c 3 t) (outsAt m c (t.val - 1) (Nat.lt_of_le_of_lt (Nat.sub_le _ _) t.isLt)).2).2
      have hcov := acc_cover_mid c (grid0.coords t) (mA t) (hA t) (mB t) (hB t) (mC t) (hC t) (mR t) (hR t) (mO t) (hO t) mAcc (Memref.isWhole_whole _) (fun h => h0 ((isFirst_iff t).mp h)) (fun h => h3 ((isLast_iff t).mp h)) (iblk m c 0 t) (iblk m c 1 t) (iblk m c 2 t) (iblk m c 3 t) (outsAt m c (t.val - 1) (Nat.lt_of_le_of_lt (Nat.sub_le _ _) t.isLt)).2
      iintro ⟨HS, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ hcov
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.KTileLaunch.lean ====
/-
  The launch.  Two windows (rows i, rows j) read ONE array, the bf16 presence matrix, so its buffer's full share is
  split in two halves, one per window; the two size layouts and the result are held whole.  The region then runs
  from the scratch buffer at anything to the scratch buffer at what the last point left, the buffers no window
  stages bypass it, and every array ends at what the pipeline computes from the proof data — in particular the
  argument, which no window stages and no host operation writes, ends as launched.
-/
import proofs.«157818_j12704513261820_1_alg».proof.Proof.KTileFrame

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's only scoped buffer besides the staging buffers is the accumulator. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) mAcc fullShare d) := by
  rw [scopedRest0_eq]; simp only [mAcc, owns_whole]; try rfl

/-- A whole array's points-to through its view is the buffer's. -/
theorem whole_pointsTo {s : Shape} {e : EltTy} (c : Dev nD) (M : Memref sig .tc .hbm s e) (h : M.IsWhole) (q : PosShare TreeShare)
    (f : Buf (Elt F) (M.view.loc (c.tc : Thread nD τ))) :
    (M.view.loc (c.tc : Thread nD τ) ↦[M.view.set]{q} f : sProp 𝕄) = (M.view.loc (c.tc : Thread nD τ) ↦{q} f) := by
  rw [h.set_eq_univ]

/-- The four distinct buffers behind the five windows' arrays, one by one. -/
theorem arrBufs_chain (c : Dev nD) :
    (Pipeline.arrBufs (Ix := Unit) (Name := ℕ) (U := UR sig nD τ) (Lvl := ℕ) (Val := Elt F) spec0 c (V m c) : sProp 𝕄)
      = iprop((((c.tc : Thread nD τ).loc main_v20) ↦{fullShare} V m c main_v20) ∗ (((c.tc : Thread nD τ).loc main_v21) ↦{fullShare} V m c main_v21)
          ∗ (((c.tc : Thread nD τ).loc main_v22) ↦{fullShare} V m c main_v22) ∗ (((c.tc : Thread nD τ).loc main_v23) ↦{fullShare} V m c main_v23)) :=
  Idealize.SL.BI.bigSep_eq_bigSepL_of_eq [main_v20, main_v21, main_v22, main_v23] (by decide) (by decide) _

/-- The buffers behind the arrays, each whole, make the pipeline's arrays at entry: the presence matrix's buffer is
    dealt half to the window of rows i and half to the window of rows j. -/
theorem split_arrays (c : Dev nD) :
    (Pipeline.arrBufs (Ix := Unit) (Name := ℕ) (U := UR sig nD τ) (Lvl := ℕ) (Val := Elt F) spec0 c (V m c) : sProp 𝕄)
      ⊢ (dats m 0 c).arrays ((dats m 0 c).arrAt · 0) := by
  rw [arrBufs_chain m c]
  unfold Dat.arrays
  rw [bigSep_W0]
  refine (sep_mono (pointsTo_share (PosShare.mem_left_op_right fullShare)).1 .rfl).trans ?_
  iintro ⟨⟨HL, HR⟩, H21, H22, H23⟩
  isplitl [HL]
  · iapply (Entails.of_eq (whole_pointsTo c (spec0 0).arr (arr_whole0 0) _ _).symm); iexact HL
  isplitl [HR]
  · iapply (Entails.of_eq (whole_pointsTo c (spec0 1).arr (arr_whole0 1) _ _).symm); iexact HR
  isplitl [H21]
  · iapply (Entails.of_eq (whole_pointsTo c (spec0 2).arr (arr_whole0 2) _ _).symm); iexact H21
  isplitl [H22]
  · iapply (Entails.of_eq (whole_pointsTo c (spec0 3).arr (arr_whole0 3) _ _).symm); iexact H22
  · iapply (Entails.of_eq (whole_pointsTo c (spec0 4).arr (arr_whole0 4) _ _).symm); iexact H23

/-- What the run ends in: every array of the pipeline at what the library computes from the proof data, every other
    unscoped buffer as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with zero counters every weakly fair execution of the program terminates, nothing faulting, in a
    state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := split_arrays m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = PhiS m c 0 (Nat.zero_le _) from rfl, PhiS_zero m c 0 _ rfl, ← scopedRest_acc c]
      iintro ⟨-, H⟩; iexact H)
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 64 := N_0; omega), scopedRest_acc c]
      iintro H; isplitr; · iempintro
      iexists _; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- info: 'Cert.Kernel.Tile.run_main' depends on axioms: [propext, Classical.choice, Quot.sound] -/
#guard_msgs in #print axioms run_main

/-- The frame: the program runs to the end, faults nowhere, and its argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 rfl (by decide))).trans (V_main_arg0 m c))
    (run_main m ρ)

end Cert.Kernel.Tile

end
-- ==== Proof.TileBase.lean ====
/-
  The pairwise-similarity kernel: a 4 x 4 x 4 grid (row tile i, column tile j, vocabulary chunk k), a
  1024 x 1024 accumulator kept in scratch across the four chunks of one (i, j), reset at k = 0 and turned
  into the output tile at k = 3.  This module fixes the vocabulary the run is stated over: the contents of
  every array when the region is entered (the host prefix applied to the launch memory), each window's block
  at a grid point, the two branch conditions in closed form (k = 0 is "point = 0 mod 4", k = 3 is
  "point = 3 mod 4"), where the output window is idle, and the staging memrefs the body is called with.
-/
import proofs.«157818_j12704513261820_1_alg».proof.Proof.Gen.KernelIdeal.Launch
import proofs.«157818_j12704513261820_1_alg».proof.Proof.Gen.KernelIdeal.Skeleton
import proofs.«157818_j12704513261820_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The buffers' contents once the host prefix (presence matrix, row sizes, their two layouts) has run. -/
abbrev V0 (c : Dev nD) : Valuation τ sig (Elt F) := StableHlo.after hostOps0 (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is its host prefix followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: it is as launched when the region is entered. -/
theorem V_main_arg0 (c : Dev nD) : V m c main_arg0 = m ((c : Thread nD τ).loc main_arg0) := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not (unfetched, the block
    index has not moved): for any proof data over these arrays whose body leaves the input in place.  One
    statement per input window: the chunk of rows i (window 0), the chunk of rows j (window 1), the sizes of
    rows i as a column (window 2), the sizes of rows j as a row (window 3). -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branches, decided over the grid -/

/-- "This is the first vocabulary chunk" as the body computes it. -/
abbrev isFirst (i : grid0.Coords) : Prop :=
  (Scalar.cmpi .ne (Scalar.extui (Scalar.cmpi .eq (BitVec.ofNat 32 (i 2).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the last vocabulary chunk" as the body computes it. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the output window is idle -/

theorem out_idle : ∀ t : Fin cfg0.N, ¬isLast (grid0.coords t) → cfg0.idle 4 (grid0.coords t) = true := by decide +kernel
theorem out_noFlush : ∀ t : Fin cfg0.N, ¬isLast (grid0.coords t) → (cfg0.win 4).flush t = false := by decide +kernel
theorem out_live : ∀ t : Fin cfg0.N, isLast (grid0.coords t) → cfg0.idle 4 (grid0.coords t) = false := by decide +kernel

/-! ## The memrefs the body is called with -/

abbrev mA (t : Fin cfg0.N) : Memref sig .tc .vmem S1024x2048 .bf16 := win0_0.stage (cfg0.slots t 0)
abbrev hA (t : Fin cfg0.N) : (mA t).IsWhole := hstage0_0 ((cfg0.slots t 0).cast nbuf0_0)
abbrev mB (t : Fin cfg0.N) : Memref sig .tc .vmem S1024x2048 .bf16 := win0_1.stage (cfg0.slots t 1)
abbrev hB (t : Fin cfg0.N) : (mB t).IsWhole := hstage0_1 ((cfg0.slots t 1).cast nbuf0_1)
abbrev mC (t : Fin cfg0.N) : Memref sig .tc .vmem S1024x1 .f32 := win0_2.stage (cfg0.slots t 2)
abbrev hC (t : Fin cfg0.N) : (mC t).IsWhole := hstage0_2 ((cfg0.slots t 2).cast nbuf0_2)
abbrev mR (t : Fin cfg0.N) : Memref sig .tc .vmem S1x1024 .f32 := win0_3.stage (cfg0.slots t 3)
abbrev hR (t : Fin cfg0.N) : (mR t).IsWhole := hstage0_3 ((cfg0.slots t 3).cast nbuf0_3)
abbrev mO (t : Fin cfg0.N) : Memref sig .tc .vmem S1024x1024 .f32 := win0_4.stage (cfg0.slots t 4)
abbrev hO (t : Fin cfg0.N) : (mO t).IsWhole := hstage0_4 ((cfg0.slots t 4).cast nbuf0_4)
/-- The accumulator: a whole scoped buffer of the kernel's own. -/
abbrev mAcc : Memref sig .tc .vmem S1024x1024 .f32 := Memref.whole cc0_scratch0
/-- Views through which the output tile's and the accumulator's contents are stated. -/
abbrev vO : View sig .tc .vmem S1024x1024 .f32 := (Memref.whole cc0_stg4_0 : Memref sig .tc .vmem S1024x1024 .f32).view
abbrev vAcc : View sig .tc .vmem S1024x1024 .f32 := mAcc.view

/-- The region's standing invariant with the accumulator as a memref owned at some contents. -/
theorem PhiA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.KernelIdeal.Tile

end
-- ==== Proof.TileRunFirst.lean ====
/-
  The body at a point with k = 0 (the first branch taken, the second not): the accumulator, found at anything,
  is overwritten with zeros and then with zeros plus this chunk's product; the inputs are left as found and the
  output tile, which this point does not touch, is handed back as found.  The stores into the accumulator are
  recorded as the list of pieces the symbolic run leaves (latest first).
-/
import proofs.«157818_j12704513261820_1_alg».proof.Proof.TileBase

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : isFirst i) (hc2 : ¬isLast i)
    (xa : Vec F S1024x2048 .bf16) (xb : Vec F S1024x2048 .bf16) (xc : Vec F S1024x1 .f32) (xr : Vec F S1x1024 .f32) :
    { LS : List (View.Piece (Elt F) S1024x1024 .f32) //
      ∀ (xo : Vec F S1024x1024 .f32) (E : Set ℕ) (K : PUnit → sProp 𝕄),
        iprop(owns (c : Thread nD τ) a3 fullShare xa ∗ owns (c : Thread nD τ) a4 fullShare xb ∗ owns (c : Thread nD τ) a5 fullShare xc ∗ owns (c : Thread nD τ) a6 fullShare xr ∗ owns (c : Thread nD τ) a7 fullShare xo ∗ (∃ d, owns (c : Thread nD τ) a8 fullShare d)
            ∗ (iprop(owns (c : Thread nD τ) a3 fullShare xa ∗ owns (c : Thread nD τ) a4 fullShare xb ∗ owns (c : Thread nD τ) a5 fullShare xc ∗ owns (c : Thread nD τ) a6 fullShare xr ∗ owns (c : Thread nD τ) a7 fullShare xo ∗ (∃ f, a8.view.loc (c : Thread nD τ) ↦[a8.view.set]{fullShare} a8.view.writes (Elt F) f LS)) -∗ K ⟨⟩))
          ⊢ wp frame (wpE (defs₀ (F := F)) Variants.none c none) E (cc0__jaccard_kernel i a3 h3 a4 h4 a5 h5 a6 h6 a7 h7 a8 h8) K } := by
  refine ⟨?_, fun xo E K => ?run⟩
  case run =>
    simp only [cc0__jaccard_kernel_eq_skeleton]; unfold cc0__jaccard_kernel_skel
    unfold owns
    iintro ⟨⟨%fa, %hfa, HA⟩, ⟨%fb, %hfb, HB⟩, ⟨%fc, %hfc, HC⟩, ⟨%fr, %hfr, HR⟩, ⟨%fo, %hfo, HO⟩, ⟨%ds, %fs, -, HS⟩, Hk⟩
    obtain rfl := h3.eq_unread hfa; obtain rfl := h4.eq_unread hfb; obtain rfl := h5.eq_unread hfc
    obtain rfl := h6.eq_unread hfr; obtain rfl := h7.eq_unread hfo
    sl_exec (disch := first | exact hc1 | exact hc2)
    sl_step
    iapply Hk
    isplitl [HA]
    · iexists _; isplitr; · ipureintro; exact h3.read_unread _
      iexact HA
    isplitl [HB]
    · iexists _; isplitr; · ipureintro; exact h4.read_unread _
      iexact HB
    isplitl [HC]
    · iexists _; isplitr; · ipureintro; exact h5.read_unread _
      iexact HC
    isplitl [HR]
    · iexists _; isplitr; · ipureintro; exact h6.read_unread _
      iexact HR
    isplitl [HO]
    · iexists _; isplitr; · ipureintro; exact h7.read_unread _
      iexact HO
    iexists _; iexact HS

end Cert.KernelIdeal.Tile

end
-- ==== Proof.TileRunMid.lean ====
/-
  The body at a point with k = 1 or k = 2 (neither branch taken): the accumulator, found at what the point
  before left, gets this chunk's product added; inputs and the untouched output tile are handed back as found.
-/
import proofs.«157818_j12704513261820_1_alg».proof.Proof.TileRunFirst

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : ¬isLast i)
    (xa : Vec F S1024x2048 .bf16) (xb : Vec F S1024x2048 .bf16) (xc : Vec F S1024x1 .f32) (xr : Vec F S1x1024 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) a3 fullShare xa ∗ owns (c : Thread nD τ) a4 fullShare xb ∗ owns (c : Thread nD τ) a5 fullShare xc ∗ owns (c : Thread nD τ) a6 fullShare xr ∗ owns (c : Thread nD τ) a7 fullShare xo ∗ owns (c : Thread nD τ) a8 fullShare xs
            ∗ (iprop(owns (c : Thread nD τ) a3 fullShare xa ∗ owns (c : Thread nD τ) a4 fullShare xb ∗ owns (c : Thread nD τ) a5 fullShare xc ∗ owns (c : Thread nD τ) a6 fullShare xr ∗ owns (c : Thread nD τ) a7 fullShare xo ∗ (∃ f, a8.view.loc (c : Thread nD τ) ↦[a8.view.set]{fullShare} a8.view.writes (Elt F) f LS)) -∗ K ⟨⟩))
          ⊢ wp frame (wpE (defs₀ (F := F)) Variants.none c none) E (cc0__jaccard_kernel i a3 h3 a4 h4 a5 h5 a6 h6 a7 h7 a8 h8) K } := by
  refine ⟨?_, fun xo E K => ?run⟩
  case run =>
    simp only [cc0__jaccard_kernel_eq_skeleton]; unfold cc0__jaccard_kernel_skel
    unfold owns
    iintro ⟨⟨%fa, %hfa, HA⟩, ⟨%fb, %hfb, HB⟩, ⟨%fc, %hfc, HC⟩, ⟨%fr, %hfr, HR⟩, ⟨%fo, %hfo, HO⟩, ⟨%fs, %hfs, HS⟩, Hk⟩
    obtain rfl := h3.eq_unread hfa; obtain rfl := h4.eq_unread hfb; obtain rfl := h5.eq_unread hfc
    obtain rfl := h6.eq_unread hfr; obtain rfl := h7.eq_unread hfo; obtain rfl := h8.eq_unread hfs
    sl_exec (disch := first | exact hc1 | exact hc2)
    sl_step
    iapply Hk
    isplitl [HA]
    · iexists _; isplitr; · ipureintro; exact h3.read_unread _
      iexact HA
    isplitl [HB]
    · iexists _; isplitr; · ipureintro; exact h4.read_unread _
      iexact HB
    isplitl [HC]
    · iexists _; isplitr; · ipureintro; exact h5.read_unread _
      iexact HC
    isplitl [HR]
    · iexists _; isplitr; · ipureintro; exact h6.read_unread _
      iexact HR
    isplitl [HO]
    · iexists _; isplitr; · ipureintro; exact h7.read_unread _
      iexact HO
    iexists _; iexact HS

end Cert.KernelIdeal.Tile

end
-- ==== Proof.TileRunLast.lean ====
/-
  The body at a point with k = 3 (the second branch taken, the first not): the last chunk's product is added
  to the accumulator, and the output tile, found at anything, is overwritten with the similarity computed from
  the finished accumulator and the two size vectors.  Both buffers' stores are recorded as pieces.
-/
import proofs.«157818_j12704513261820_1_alg».proof.Proof.TileRunMid

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i)
    (xa : Vec F S1024x2048 .bf16) (xb : Vec F S1024x2048 .bf16) (xc : Vec F S1024x1 .f32) (xr : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a3 fullShare xa ∗ owns (c : Thread nD τ) a4 fullShare xb ∗ owns (c : Thread nD τ) a5 fullShare xc ∗ owns (c : Thread nD τ) a6 fullShare xr ∗ (∃ d, owns (c : Thread nD τ) a7 fullShare d) ∗ owns (c : Thread nD τ) a8 fullShare xs
            ∗ (iprop(owns (c : Thread nD τ) a3 fullShare xa ∗ owns (c : Thread nD τ) a4 fullShare xb ∗ owns (c : Thread nD τ) a5 fullShare xc ∗ owns (c : Thread nD τ) a6 fullShare xr ∗ (∃ f, a7.view.loc (c : Thread nD τ) ↦[a7.view.set]{fullShare} a7.view.writes (Elt F) f LO) ∗ (∃ f, a8.view.loc (c : Thread nD τ) ↦[a8.view.set]{fullShare} a8.view.writes (Elt F) f LS)) -∗ K ⟨⟩))
          ⊢ wp frame (wpE (defs₀ (F := F)) Variants.none c none) E (cc0__jaccard_kernel i a3 h3 a4 h4 a5 h5 a6 h6 a7 h7 a8 h8) K } := by
  refine ⟨?_, ?_, fun E K => ?run⟩
  case run =>
    simp only [cc0__jaccard_kernel_eq_skeleton]; unfold cc0__jaccard_kernel_skel
    unfold owns
    iintro ⟨⟨%fa, %hfa, HA⟩, ⟨%fb, %hfb, HB⟩, ⟨%fc, %hfc, HC⟩, ⟨%fr, %hfr, HR⟩, ⟨%d7, %fo, -, HO⟩, ⟨%fs, %hfs, HS⟩, Hk⟩
    obtain rfl := h3.eq_unread hfa; obtain rfl := h4.eq_unread hfb; obtain rfl := h5.eq_unread hfc
    obtain rfl := h6.eq_unread hfr; obtain rfl := h8.eq_unread hfs
    sl_exec (disch := first | exact hc1 | exact hc2)
    sl_step
    iapply Hk
    isplitl [HA]
    · iexists _; isplitr; · ipureintro; exact h3.read_unread _
      iexact HA
    isplitl [HB]
    · iexists _; isplitr; · ipureintro; exact h4.read_unread _
      iexact HB
    isplitl [HC]
    · iexists _; isplitr; · ipureintro; exact h5.read_unread _
      iexact HC
    isplitl [HR]
    · iexists _; isplitr; · ipureintro; exact h6.read_unread _
      iexact HR
    isplitl [HO]; · iexists _; iexact HO
    iexists _; iexact HS

end Cert.KernelIdeal.Tile

end
-- ==== Proof.TileFrame.lean ====
/-
  What the accumulator and the output tile hold after each grid point, the region's invariant, the proof data of
  the pipeline and the body obligation.

  After point t (tile (i, j), chunk k = t mod 4) the accumulator holds, by recursion on t: at k = 0 the pieces the
  first-chunk run leaves (zeros, then zeros plus the product of chunk 0); at k = 1, 2 the mid run's pieces over what
  point t - 1 left; at k = 3 the last run's.  The output tile is stored only at k = 3 (the last run's pieces, which
  depend on what point t - 1 left in the accumulator); elsewhere the window is idle and not written back, and its
  entry in the table is a placeholder nothing reads.  The invariant before point 0 is the scratch buffer at anything;
  before any later point, the scratch buffer at what the point before left.
-/
import proofs.«157818_j12704513261820_1_alg».proof.Proof.TileRunLast

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover the buffers, and what they leave -/

theorem acc_cover_first (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : isFirst i) (hc2 : ¬isLast i) (xa : Vec F S1024x2048 .bf16) (xb : Vec F S1024x2048 .bf16) (xc : Vec F S1024x1 .f32) (xr : Vec F S1x1024 .f32) (y : S1024x1024.Idx) :
    ∃ pc ∈ (runFirst c i a3 h3 a4 h4 a5 h5 a6 h6 a7 h7 a8 h8 hc1 hc2 xa xb xc xr).1, y ∈ pc.1.set :=
  View.cover_of_tiledL (runFirst c i a3 h3 a4 h4 a5 h5 a6 h6 a7 h7 a8 h8 hc1 hc2 xa xb xc xr).1 S1024x1024.size (by sl_kernel_rfl) y

/-- The accumulator after a first-chunk point. -/
def accFirst (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : isFirst i) (hc2 : ¬isLast i) (xa : Vec F S1024x2048 .bf16) (xb : Vec F S1024x2048 .bf16) (xc : Vec F S1024x1 .f32) (xr : Vec F S1x1024 .f32) : Vec F S1024x1024 .f32 :=
  vAcc.read (Elt F) (vAcc.writes (Elt F) vAcc.junk (runFirst c i a3 h3 a4 h4 a5 h5 a6 h6 a7 h7 a8 h8 hc1 hc2 xa xb xc xr).1)

theorem acc_cover_mid (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : ¬isLast i) (xa : Vec F S1024x2048 .bf16) (xb : Vec F S1024x2048 .bf16) (xc : Vec F S1024x1 .f32) (xr : Vec F S1x1024 .f32) (xs : Vec F S1024x1024 .f32) (y : S1024x1024.Idx) :
    ∃ pc ∈ (runMid c i a3 h3 a4 h4 a5 h5 a6 h6 a7 h7 a8 h8 hc1 hc2 xa xb xc xr xs).1, y ∈ pc.1.set :=
  View.cover_of_tiledL (runMid c i a3 h3 a4 h4 a5 h5 a6 h6 a7 h7 a8 h8 hc1 hc2 xa xb xc xr xs).1 S1024x1024.size (by sl_kernel_rfl) y

/-- The accumulator after a middle-chunk point, over what the point before left (`xs`). -/
def accMid (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : ¬isLast i) (xa : Vec F S1024x2048 .bf16) (xb : Vec F S1024x2048 .bf16) (xc : Vec F S1024x1 .f32) (xr : Vec F S1x1024 .f32) (xs : Vec F S1024x1024 .f32) : Vec F S1024x1024 .f32 :=
  vAcc.read (Elt F) (vAcc.writes (Elt F) vAcc.junk (runMid c i a3 h3 a4 h4 a5 h5 a6 h6 a7 h7 a8 h8 hc1 hc2 xa xb xc xr xs).1)

theorem acc_cover_last (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) (y : S1024x1024.Idx) :
    ∃ pc ∈ (runLast c i a3 h3 a4 h4 a5 h5 a6 h6 a7 h7 a8 h8 hc1 hc2 xa xb xc xr xs).2.1, y ∈ pc.1.set :=
  View.cover_of_tiledL (runLast c i a3 h3 a4 h4 a5 h5 a6 h6 a7 h7 a8 h8 hc1 hc2 xa xb xc xr xs).2.1 S1024x1024.size (by sl_kernel_rfl) y

/-- The accumulator after a last-chunk point. -/
def accLast (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) : Vec F S1024x1024 .f32 :=
  vAcc.read (Elt F) (vAcc.writes (Elt F) vAcc.junk (runLast c i a3 h3 a4 h4 a5 h5 a6 h6 a7 h7 a8 h8 hc1 hc2 xa xb xc xr xs).2.1)

theorem out_cover_last (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) (y : S1024x1024.Idx) :
    ∃ pc ∈ (runLast c i a3 h3 a4 h4 a5 h5 a6 h6 a7 h7 a8 h8 hc1 hc2 xa xb xc xr xs).1, y ∈ pc.1.set :=
  View.cover_of_tiledL (runLast c i a3 h3 a4 h4 a5 h5 a6 h6 a7 h7 a8 h8 hc1 hc2 xa xb xc xr xs).1 S1024x1024.size (by sl_kernel_rfl) y

/-- The output tile after a last-chunk point. -/
def outLast (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) : Vec F S1024x1024 .f32 :=
  vO.read (Elt F) (vO.writes (Elt F) vO.junk (runLast c i a3 h3 a4 h4 a5 h5 a6 h6 a7 h7 a8 h8 hc1 hc2 xa xb xc xr xs).1)

/-! ## Point by point -/

/-- Contents nothing reads: the output tile's table entry at a point that does not store it. -/
def unread : Vec F S1024x1024 .f32 := vO.read (Elt F) vO.junk

/-- One point: (output tile, accumulator) after point `t`, given what the accumulator held before it. -/
def stepAt (c : Dev nD) (t : Fin cfg0.N) (prev : Vec F S1024x1024 .f32) : Vec F S1024x1024 .f32 × Vec F S1024x1024 .f32 :=
  if h0 : t.val % 4 = 0 then
    (unread, accFirst c (grid0.coords t) (mA t) (hA t) (mB t) (hB t) (mC t) (hC t) (mR t) (hR t) (mO t) (hO t) mAcc (Memref.isWhole_whole _) ((isFirst_iff t).mpr h0) (fun h => by have := (isLast_iff t).mp h; omega) (iblk m c 0 t) (iblk m c 1 t) (iblk m c 2 t) (iblk m c 3 t))
  else if h3 : t.val % 4 = 3 then
    (outLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) prev,
     accLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) prev)
  else
    (unread, accMid c (grid0.coords t) (mA t) (hA t) (mB t) (hB t) (mC t) (hC t) (mR t) (hR t) (mO t) (hO t) mAcc (Memref.isWhole_whole _) (fun h => h0 ((isFirst_iff t).mp h)) (fun h => h3 ((isLast_iff t).mp h)) (iblk m c 0 t) (iblk m c 1 t) (iblk m c 2 t) (iblk m c 3 t) prev)

/-- (output tile, accumulator) after point `n`, by recursion on the point. -/
def outsAt (c : Dev nD) : (n : ℕ) → n < cfg0.N → Vec F S1024x1024 .f32 × Vec F S1024x1024 .f32
  | 0, hn => stepAt m c ⟨0, hn⟩ unread
  | n + 1, hn => stepAt m c ⟨n + 1, hn⟩ (outsAt c n (Nat.lt_of_succ_lt hn)).2

theorem outsAt_zero (c : Dev nD) (t : Fin cfg0.N) (ht : t.val = 0) : outsAt m c t.val t.isLt = stepAt m c t unread := by
  obtain ⟨n, hn⟩ := t
  cases n with
  | zero => rfl
  | succ n => exact absurd ht (Nat.succ_ne_zero n)

theorem outsAt_pos (c : Dev nD) (t : Fin cfg0.N) (ht : t.val ≠ 0) :
    outsAt m c t.val t.isLt = stepAt m c t (outsAt m c (t.val - 1) (Nat.lt_of_le_of_lt (Nat.sub_le _ _) t.isLt)).2 := by
  obtain ⟨n, hn⟩ := t
  cases n with
  | zero => exact absurd rfl ht
  | succ n => rfl

theorem stepAt_first (c : Dev nD) (t : Fin cfg0.N) (prev : Vec F S1024x1024 .f32) (h0 : t.val % 4 = 0) (h3 : ¬t.val % 4 = 3) :
    stepAt m c t prev = (unread, accFirst c (grid0.coords t) (mA t) (hA t) (mB t) (hB t) (mC t) (hC t) (mR t) (hR t) (mO t) (hO t) mAcc (Memref.isWhole_whole _) ((isFirst_iff t).mpr h0) (fun h => h3 ((isLast_iff t).mp h)) (iblk m c 0 t) (iblk m c 1 t) (iblk m c 2 t) (iblk m c 3 t)) := by
  unfold stepAt; rw [dif_pos h0]

theorem stepAt_last (c : Dev nD) (t : Fin cfg0.N) (prev : Vec F S1024x1024 .f32) (h0 : ¬t.val % 4 = 0) (h3 : t.val % 4 = 3) :
    stepAt m c t prev = (outLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) prev,
     accLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) prev) := by
  unfold stepAt; rw [dif_neg h0, dif_pos h3]

theorem stepAt_mid (c : Dev nD) (t : Fin cfg0.N) (prev : Vec F S1024x1024 .f32) (h0 : ¬t.val % 4 = 0) (h3 : ¬t.val % 4 = 3) :
    stepAt m c t prev = (unread, accMid c (grid0.coords t) (mA t) (hA t) (mB t) (hB t) (mC t) (hC t) (mR t) (hR t) (mO t) (hO t) mAcc (Memref.isWhole_whole _) (fun h => h0 ((isFirst_iff t).mp h)) (fun h => h3 ((isLast_iff t).mp h)) (iblk m c 0 t) (iblk m c 1 t) (iblk m c 2 t) (iblk m c 3 t) prev) := by
  unfold stepAt; rw [dif_neg h0, dif_neg h3]

/-- At a first-chunk point nothing of the point before is read. -/
theorem outsAt_first (c : Dev nD) (t : Fin cfg0.N) (h0 : t.val % 4 = 0) (h3 : ¬t.val % 4 = 3) :
    outsAt m c t.val t.isLt = (unread, accFirst c (grid0.coords t) (mA t) (hA t) (mB t) (hB t) (mC t) (hC t) (mR t) (hR t) (mO t) (hO t) mAcc (Memref.isWhole_whole _) ((isFirst_iff t).mpr h0) (fun h => h3 ((isLast_iff t).mp h)) (iblk m c 0 t) (iblk m c 1 t) (iblk m c 2 t) (iblk m c 3 t)) := by
  by_cases hz : t.val = 0
  · rw [outsAt_zero m c t hz, stepAt_first m c t _ h0 h3]
  · rw [outsAt_pos m c t hz, stepAt_first m c t _ h0 h3]

/-! ## The invariant -/

/-- Before point `n`: the scratch buffer at anything (n = 0), or at what point n - 1 left in it. -/
def PhiS (c : Dev nD) : (n : ℕ) → n ≤ cfg0.N → sProp 𝕄
  | 0, _ => iprop(∃ d, owns (c : Thread nD τ) mAcc fullShare d)
  | n + 1, hn => owns (c : Thread nD τ) mAcc fullShare ((outsAt m c n hn).2)

theorem PhiS_zero (c : Dev nD) (n : ℕ) (h : n ≤ cfg0.N) (hz : n = 0) :
    PhiS m c n h = iprop(∃ d, owns (c : Thread nD τ) mAcc fullShare d) := by
  subst hz; rfl

theorem PhiS_succ (c : Dev nD) (n : ℕ) (hn : n < cfg0.N) :
    PhiS m c (n + 1) hn = owns (c : Thread nD τ) mAcc fullShare ((outsAt m c n hn).2) := rfl

theorem PhiS_pos (c : Dev nD) (n : ℕ) (h : n ≤ cfg0.N) (hz : n ≠ 0) :
    PhiS m c n h = owns (c : Thread nD τ) mAcc fullShare ((outsAt m c (n - 1) (by omega)).2) := by
  cases n with
  | zero => exact absurd rfl hz
  | succ n => rfl

/-! ## The proof data -/

/-- The arrays as the region finds them; after the body each input buffer at its block and the output's at the
    table above; the presence matrix, read by two windows, held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mA t) fullShare ((dats m 0 c).before 0 t d))
    ∗ (∃ d, owns (c : Thread nD τ) (mB t) fullShare ((dats m 0 c).before 1 t d))
    ∗ (∃ d, owns (c : Thread nD τ) (mC t) fullShare ((dats m 0 c).before 2 t d))
    ∗ (∃ d, owns (c : Thread nD τ) (mR t) fullShare ((dats m 0 c).before 3 t d))
    ∗ (∃ d, owns (c : Thread nD τ) (mO t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (mA t) fullShare (iblk m c 0 t) := by
  rw [show (dats m 0 c).leavesExact 0 t = owns (c : Thread nD τ) (mA t) fullShare ((dats m 0 c).after 0 t) from rfl, after0]
theorem leaves_in1 (c : Dev nD) (t : Fin cfg0.N) : (dats m 0 c).leavesExact 1 t = owns (c : Thread nD τ) (mB t) fullShare (iblk m c 1 t) := by
  rw [show (dats m 0 c).leavesExact 1 t = owns (c : Thread nD τ) (mB t) fullShare ((dats m 0 c).after 1 t) from rfl, after1]
theorem leaves_in2 (c : Dev nD) (t : Fin cfg0.N) : (dats m 0 c).leavesExact 2 t = owns (c : Thread nD τ) (mC t) fullShare (iblk m c 2 t) := by
  rw [show (dats m 0 c).leavesExact 2 t = owns (c : Thread nD τ) (mC t) fullShare ((dats m 0 c).after 2 t) from rfl, after2]
theorem leaves_in3 (c : Dev nD) (t : Fin cfg0.N) : (dats m 0 c).leavesExact 3 t = owns (c : Thread nD τ) (mR t) fullShare (iblk m c 3 t) := by
  rw [show (dats m 0 c).leavesExact 3 t = owns (c : Thread nD τ) (mR t) fullShare ((dats m 0 c).after 3 t) from rfl, after3]

set_option maxHeartbeats 4800000 in
/-- The body at any point: the inputs' buffers hold their blocks; the point's chunk index says which of the three
    runs applies; the invariant hands the run the accumulator at what the point before left (at anything, where the
    run overwrites it first) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  by_cases h0 : t.val % 4 = 0
  · have h3 : ¬t.val % 4 = 3 := by omega
    rw [Dat.leavesExact_idle (dats m 0 c) 4 t (out_idle t (fun h => h3 ((isLast_iff t).mp h))) (out_noFlush t (fun h => h3 ((isLast_iff t).mp h)))]
    rw [outsAt_first m c t h0 h3]
    unfold accFirst; (try dsimp only)
    have hrun := (runFirst c (grid0.coords t) (mA t) (hA t) (mB t) (hB t) (mC t) (hC t) (mR t) (hR t) (mO t) (hO t) mAcc (Memref.isWhole_whole _) ((isFirst_iff t).mpr h0) (fun h => h3 ((isLast_iff t).mp h)) (iblk m c 0 t) (iblk m c 1 t) (iblk m c 2 t) (iblk m c 3 t)).2
    have hcov := acc_cover_first c (grid0.coords t) (mA t) (hA t) (mB t) (hB t) (mC t) (hC t) (mR t) (hR t) (mO t) (hO t) mAcc (Memref.isWhole_whole _) ((isFirst_iff t).mpr h0) (fun h => h3 ((isLast_iff t).mp h)) (iblk m c 0 t) (iblk m c 1 t) (iblk m c 2 t) (iblk m c 3 t)
    have hpre : (dats m 0 c).Φ t.castSucc ⊢ iprop(∃ d, owns (c : Thread nD τ) mAcc fullShare d) := by
      by_cases hz : t.val = 0
      · rw [Phi_castSucc m c t, PhiS_zero m c _ _ hz]
      · rw [Phi_castSucc m c t, PhiS_pos m c _ _ hz]
        iintro HS; iexists _; iexact HS
    iintro ⟨HS, Ho, ⟨%d0, H0⟩, ⟨%d1, H1⟩, ⟨%d2, H2⟩, ⟨%d3, H3⟩, ⟨%d4, H4⟩⟩
    iapply (hrun _ Set.univ _)
    isplitl [H0]; · iexact H0
    isplitl [H1]; · iexact H1
    isplitl [H2]; · iexact H2
    isplitl [H3]; · iexact H3
    isplitl [H4]; · iexact H4
    isplitl [HS]; · iapply hpre; iexact HS
    iintro ⟨H0, H1, H2, H3, H4, ⟨%es, HS⟩⟩
    isplitl [HS]
    · unfold owns; iexists _; isplitr
      swap; · iexact HS
      ipureintro; exact View.read_writes_of_cover _ _ _ _ _ hcov
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [Phi_castSucc m c t, PhiS_pos m c _ _ hz, outsAt_pos m c t hz]
    by_cases h3 : t.val % 4 = 3
    · rw [show (dats m 0 c).leavesExact 4 t = owns (c : Thread nD τ) (mO t) fullShare ((dats m 0 c).after 4 t) from by
        unfold Dat.leavesExact; rw [out_live t ((isLast_iff t).mpr h3)], after4, outsAt_pos m c t hz]
      rw [stepAt_last m c t _ h0 h3]
      unfold outLast accLast; (try dsimp only)
      have hrun := (runLast c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) (outsAt m c (t.val - 1) (Nat.lt_of_le_of_lt (Nat.sub_le _ _) t.isLt)).2).2.2
      have hcovS := acc_cover_last c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) (outsAt m c (t.val - 1) (Nat.lt_of_le_of_lt (Nat.sub_le _ _) t.isLt)).2
      have hcovO := out_cover_last c (grid0.coords t) (mA t) (hA t) (mB t) (hB t) (mC t) (hC t) (mR t) (hR t) (mO t) (hO t) mAcc (Memref.isWhole_whole _) (fun h => h0 ((isFirst_iff t).mp h)) ((isLast_iff t).mpr h3) (iblk m c 0 t) (iblk m c 1 t) (iblk m c 2 t) (iblk m c 3 t) (outsAt m c (t.val - 1) (Nat.lt_of_le_of_lt (Nat.sub_le _ _) t.isLt)).2
      iintro ⟨HS, Ho, ⟨%d0, H0⟩, ⟨%d1, H1⟩, ⟨%d2, H2⟩, ⟨%d3, H3⟩, ⟨%d4, H4⟩⟩
      iapply (hrun Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ hcovS
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ hcovO
    · rw [Dat.leavesExact_idle (dats m 0 c) 4 t (out_idle t (fun h => h3 ((isLast_iff t).mp h))) (out_noFlush t (fun h => h3 ((isLast_iff t).mp h)))]
      rw [stepAt_mid m c t _ h0 h3]
      unfold accMid; (try dsimp only)
      have hrun := (runMid c (grid0.coords t) (mA t) (hA t) (mB t) (hB t) (mC t) (hC t) (mR t) (hR t) (mO t) (hO t) mAcc (Memref.isWhole_whole _) (fun h => h0 ((isFirst_iff t).mp h)) (fun h => h3 ((isLast_iff t).mp h)) (iblk m c 0 t) (iblk m c 1 t) (iblk m c 2 t) (iblk m c 3 t) (outsAt m c (t.val - 1) (Nat.lt_of_le_of_lt (Nat.sub_le _ _) t.isLt)).2).2
      have hcov := acc_cover_mid c (grid0.coords t) (mA t) (hA t) (mB t) (hB t) (mC t) (hC t) (mR t) (hR t) (mO t) (hO t) mAcc (Memref.isWhole_whole _) (fun h => h0 ((isFirst_iff t).mp h)) (fun h => h3 ((isLast_iff t).mp h)) (iblk m c 0 t) (iblk m c 1 t) (iblk m c 2 t) (iblk m c 3 t) (outsAt m c (t.val - 1) (Nat.lt_of_le_of_lt (Nat.sub_le _ _) t.isLt)).2
      iintro ⟨HS, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ hcov
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.TileLaunch.lean ====
/-
  The launch.  Two windows (rows i, rows j) read ONE array, the bf16 presence matrix, so its buffer's full share is
  split in two halves, one per window; the two size layouts and the result are held whole.  The region then runs
  from the scratch buffer at anything to the scratch buffer at what the last point left, the buffers no window
  stages bypass it, and every array ends at what the pipeline computes from the proof data — in particular the
  argument, which no window stages and no host operation writes, ends as launched.
-/
import proofs.«157818_j12704513261820_1_alg».proof.Proof.TileFrame

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's only scoped buffer besides the staging buffers is the accumulator. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) mAcc fullShare d) := by
  rw [scopedRest0_eq]; simp only [mAcc, owns_whole]; try rfl

/-- A whole array's points-to through its view is the buffer's. -/
theorem whole_pointsTo {s : Shape} {e : EltTy} (c : Dev nD) (M : Memref sig .tc .hbm s e) (h : M.IsWhole) (q : PosShare TreeShare)
    (f : Buf (Elt F) (M.view.loc (c.tc : Thread nD τ))) :
    (M.view.loc (c.tc : Thread nD τ) ↦[M.view.set]{q} f : sProp 𝕄) = (M.view.loc (c.tc : Thread nD τ) ↦{q} f) := by
  rw [h.set_eq_univ]

/-- The four distinct buffers behind the five windows' arrays, one by one. -/
theorem arrBufs_chain (c : Dev nD) :
    (Pipeline.arrBufs (Ix := Unit) (Name := ℕ) (U := UR sig nD τ) (Lvl := ℕ) (Val := Elt F) spec0 c (V m c) : sProp 𝕄)
      = iprop((((c.tc : Thread nD τ).loc main_v20) ↦{fullShare} V m c main_v20) ∗ (((c.tc : Thread nD τ).loc main_v21) ↦{fullShare} V m c main_v21)
          ∗ (((c.tc : Thread nD τ).loc main_v22) ↦{fullShare} V m c main_v22) ∗ (((c.tc : Thread nD τ).loc main_v23) ↦{fullShare} V m c main_v23)) :=
  Idealize.SL.BI.bigSep_eq_bigSepL_of_eq [main_v20, main_v21, main_v22, main_v23] (by decide) (by decide) _

/-- The buffers behind the arrays, each whole, make the pipeline's arrays at entry: the presence matrix's buffer is
    dealt half to the window of rows i and half to the window of rows j. -/
theorem split_arrays (c : Dev nD) :
    (Pipeline.arrBufs (Ix := Unit) (Name := ℕ) (U := UR sig nD τ) (Lvl := ℕ) (Val := Elt F) spec0 c (V m c) : sProp 𝕄)
      ⊢ (dats m 0 c).arrays ((dats m 0 c).arrAt · 0) := by
  rw [arrBufs_chain m c]
  unfold Dat.arrays
  rw [bigSep_W0]
  refine (sep_mono (pointsTo_share (PosShare.mem_left_op_right fullShare)).1 .rfl).trans ?_
  iintro ⟨⟨HL, HR⟩, H21, H22, H23⟩
  isplitl [HL]
  · iapply (Entails.of_eq (whole_pointsTo c (spec0 0).arr (arr_whole0 0) _ _).symm); iexact HL
  isplitl [HR]
  · iapply (Entails.of_eq (whole_pointsTo c (spec0 1).arr (arr_whole0 1) _ _).symm); iexact HR
  isplitl [H21]
  · iapply (Entails.of_eq (whole_pointsTo c (spec0 2).arr (arr_whole0 2) _ _).symm); iexact H21
  isplitl [H22]
  · iapply (Entails.of_eq (whole_pointsTo c (spec0 3).arr (arr_whole0 3) _ _).symm); iexact H22
  · iapply (Entails.of_eq (whole_pointsTo c (spec0 4).arr (arr_whole0 4) _ _).symm); iexact H23

/-- What the run ends in: every array of the pipeline at what the library computes from the proof data, every other
    unscoped buffer as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with zero counters every weakly fair execution of the program terminates, nothing faulting, in a
    state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := split_arrays m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = PhiS m c 0 (Nat.zero_le _) from rfl, PhiS_zero m c 0 _ rfl, ← scopedRest_acc c]
      iintro ⟨-, H⟩; iexact H)
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 64 := N_0; omega), scopedRest_acc c]
      iintro H; isplitr; · iempintro
      iexists _; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- info: 'Cert.KernelIdeal.Tile.run_main' depends on axioms: [propext, Classical.choice, Quot.sound] -/
#guard_msgs in #print axioms run_main

/-- The frame: the program runs to the end, faults nowhere, and its argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 rfl (by decide))).trans (V_main_arg0 m c))
    (run_main m ρ)

end Cert.KernelIdeal.Tile

end
-- ==== Proof.TilePieces.lean ====
/-
  What the recorded stores leave, named by the body's arithmetic.  Every store of this body covers its whole buffer
  through the rectangle at offset (0, 0), and every load reads a whole buffer the same way, so a buffer ends at the
  payload of its LAST store, and a load after a store reads that store's payload:

    after a first-chunk point   the accumulator is  payload2 (zeros) A B          (zeros stored, read back, added to)
    after a middle point        the accumulator is  payload2 (previous) A B
    after a last-chunk point    the accumulator is  payload2 (previous) A B  and the output tile is
                                payload3 of that accumulator and the two size blocks.

  Here payload2 acc A B = acc + A · Bᵀ (into a zero matrix) and payload3 is the similarity formula, as the skeleton
  of the printed body names them.
-/
import proofs.«157818_j12704513261820_1_alg».proof.Proof.TileFrame
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem origin2 : (![0, 0] : Fin 2 → Nat) = fun _ => 0 := funext fun a => by fin_cases a <;> rfl

theorem accMid_eq (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : ¬isLast i) (xa : Vec F S1024x2048 .bf16) (xb : Vec F S1024x2048 .bf16) (xc : Vec F S1024x1 .f32) (xr : Vec F S1x1024 .f32) (xs : Vec F S1024x1024 .f32) :
    accMid c i a3 h3 a4 h4 a5 h5 a6 h6 a7 h7 a8 h8 hc1 hc2 xa xb xc xr xs = k0_pay2 xs xa xb := by
  unfold accMid
  rw [View.read_writes_eq_canon _ _ _ (acc_cover_mid c i a3 h3 a4 h4 a5 h5 a6 h6 a7 h7 a8 h8 hc1 hc2 xa xb xc xr xs)]
  unfold runMid
  dsimp only
  sl_unfold_words
  rw [View.canon_unit_zero origin2]
  simp only [View.readAt_eq_ld, Memref.IsWhole.read_unread, View.ld_unit_zero (S := S1024x1024) origin2,
    View.ld_unit_zero (S := S1024x2048) origin2]

theorem accFirst_eq (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : isFirst i) (hc2 : ¬isLast i) (xa : Vec F S1024x2048 .bf16) (xb : Vec F S1024x2048 .bf16) (xc : Vec F S1024x1 .f32) (xr : Vec F S1x1024 .f32) :
    accFirst c i a3 h3 a4 h4 a5 h5 a6 h6 a7 h7 a8 h8 hc1 hc2 xa xb xc xr = k0_pay2 (k0_pay1 (F := F)) xa xb := by
  unfold accFirst
  rw [View.read_writes_eq_canon _ _ _ (acc_cover_first c i a3 h3 a4 h4 a5 h5 a6 h6 a7 h7 a8 h8 hc1 hc2 xa xb xc xr)]
  unfold runFirst
  dsimp only
  sl_unfold_words
  rw [View.canon_cons_unit_zero origin2]
  simp only [View.readAt_eq_ld, Memref.IsWhole.read_unread, View.ld_unit_zero (S := S1024x1024) origin2,
    View.ld_unit_zero (S := S1024x2048) origin2]
  rw [View.readCov_unit_zero (S := S1024x1024) a8.view origin2]

theorem accLast_eq (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) :
    accLast c i a3 h3 a4 h4 a5 h5 a6 h6 a7 h7 a8 h8 hc1 hc2 xa xb xc xr xs = k0_pay2 xs xa xb := by
  unfold accLast
  rw [View.read_writes_eq_canon _ _ _ (acc_cover_last c i a3 h3 a4 h4 a5 h5 a6 h6 a7 h7 a8 h8 hc1 hc2 xa xb xc xr xs)]
  unfold runLast
  dsimp only
  sl_unfold_words
  rw [View.canon_unit_zero origin2]
  simp only [View.readAt_eq_ld, Memref.IsWhole.read_unread, View.ld_unit_zero (S := S1024x1024) origin2,
    View.ld_unit_zero (S := S1024x2048) origin2]

theorem outLast_eq (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc1 : ¬isFirst i) (hc2 : isLast i) (xa : Vec F S1024x2048 .bf16) (xb : Vec F S1024x2048 .bf16) (xc : Vec F S1024x1 .f32) (xr : Vec F S1x1024 .f32) (xs : Vec F S1024x1024 .f32) :
    outLast c i a3 h3 a4 h4 a5 h5 a6 h6 a7 h7 a8 h8 hc1 hc2 xa xb xc xr xs = k0_pay3 (k0_pay2 xs xa xb) xc xr := by
  unfold outLast
  rw [View.read_writes_eq_canon _ _ _ (out_cover_last c i a3 h3 a4 h4 a5 h5 a6 h6 a7 h7 a8 h8 hc1 hc2 xa xb xc xr xs)]
  unfold runLast
  dsimp only
  sl_unfold_words
  rw [View.canon_unit_zero origin2]
  simp only [View.readAt_eq_ld, Memref.IsWhole.read_unread, View.ld_unit_zero (S := S1024x1024) origin2,
    View.ld_unit_zero (S := S1024x2048) origin2, View.ld_unit_zero (S := S1024x1) origin2,
    View.ld_unit_zero (S := S1x1024) origin2]
  rw [View.readCov_unit_zero (S := S1024x1024) a8.view origin2]

end Cert.KernelIdeal.Tile

end
-- ==== Proof.JacSpec.lean ====
/-
  The mathematics both programs compute, on the extended reals, with no program in sight.

  Rows are sets of codes below 8192; P r v is 1 where code v occurs in row r and 0 elsewhere (here: any extended
  real — nothing below uses that the entries are 0 or 1, nor that anything is finite).  The size of the
  intersection of rows r and s is the inner product ∑ v, P r v · P s v.  One program forms it in one go; the other
  cuts the 8192 codes into four chunks of 2048 and adds the four partial inner products into a zero accumulator,
  one after the other.  Addition on the extended reals is commutative and associative (with the convention
  ⊤ + ⊥ = ⊥ it is still a commutative monoid), so the two agree: `partialDot_three`.

  From the two sizes a, b and the intersection n the similarity is  -n / (a + b - n)  where the union a + b - n is
  not zero, and 0 where it is: `sim`.  One program writes the numerator 0 - n, the other -n.
-/
import Idealize.ShloMosaic.PureOps.Ideal.Laws
import Idealize.ShloMosaic.Lib.ValueIdx

noncomputable section

namespace Cert.Jaccard

open Idealize.ShloMosaic

/-- Code `v` as (chunk, position inside the chunk). -/
def codeEquiv : Fin 4 × Fin 2048 ≃ Fin 8192 where
  toFun x := ⟨x.1.val * 2048 + x.2.val, by have := x.1.isLt; have := x.2.isLt; omega⟩
  invFun v := (⟨v.val / 2048, by have := v.isLt; omega⟩, ⟨v.val % 2048, Nat.mod_lt _ (by decide)⟩)
  left_inv x := by
    obtain ⟨⟨a, ha⟩, ⟨b, hb⟩⟩ := x
    refine Prod.ext (Fin.ext ?_) (Fin.ext ?_)
    · show (a * 2048 + b) / 2048 = a
      omega
    · show (a * 2048 + b) % 2048 = b
      omega
  right_inv v := by
    obtain ⟨v, hv⟩ := v
    refine Fin.ext ?_
    show v / 2048 * 2048 + v % 2048 = v
    omega

/-- A sum over all codes is the sum over the chunks of the sums inside each chunk. -/
theorem sum_codes {α : Type} [AddCommMonoid α] (f : ℕ → α) :
    ∑ v : Fin 8192, f v.val = ∑ kb : Fin 4, ∑ k : Fin 2048, f (kb.val * 2048 + k.val) := by
  rw [← Equiv.sum_comp codeEquiv (fun v : Fin 8192 => f v.val), Fintype.sum_prod_type]
  rfl

/-- The inner product of rows `r` and `s` restricted to chunk `kb`. -/
def chunkDot (P : ℕ → ℕ → EReal) (r s kb : ℕ) : EReal :=
  ∑ k : Fin 2048, P r (kb * 2048 + k.val) * P s (kb * 2048 + k.val)

/-- The accumulator after chunk `k`: zero plus chunk 0, then each later chunk added on the right. -/
def partialDot (P : ℕ → ℕ → EReal) (r s : ℕ) : ℕ → EReal
  | 0 => 0 + chunkDot P r s 0
  | k + 1 => partialDot P r s k + chunkDot P r s (k + 1)

/-- After the fourth chunk the accumulator is the whole inner product. -/
theorem partialDot_three (P : ℕ → ℕ → EReal) (r s : ℕ) :
    partialDot P r s 3 = ∑ v : Fin 8192, P r v.val * P s v.val := by
  rw [sum_codes (fun v => P r v * P s v), Fin.sum_univ_four]
  simp only [partialDot, chunkDot, zero_add]
  rfl

/-- The two float words the formula names: zero and one. -/
abbrev fzero : EReal := Ideal.ofBits .f32 0x00000000#32
abbrev fone : EReal := Ideal.ofBits .f32 0x3F800000#32

/-- The similarity of two rows from their sizes `a`, `b` and their intersection `n`. -/
def sim (a b n : EReal) : EReal :=
  Scalar.select (Ideal.cmp .one (a + b - n) fzero)
    (Ideal.div (-n) (Scalar.select (Ideal.cmp .one (a + b - n) fzero) (a + b - n) fone)) fzero

/-- Zero minus `n` is `-n`, at the infinities too. -/
theorem fzero_sub (n : EReal) : fzero - n = -n := by
  rw [show fzero = 0 from Ideal.ofBits_zero_f32, sub_eq_add_neg, zero_add]

/-- Zero plus `x` is `x`. -/
theorem fzero_add (x : EReal) : fzero + x = x := by
  rw [show fzero = 0 from Ideal.ofBits_zero_f32, zero_add]

/-- "Not equal" has one reading on the extended reals: no element is unordered. -/
theorem cmp_une (x y : EReal) : Ideal.cmp .une x y = Ideal.cmp .one x y := rfl

end Cert.Jaccard

end
-- ==== Proof.TileSteps.lean ====
/-
  Point t of the grid is tile (i, j) = (t / 16, t / 4 mod 4) and chunk k = t mod 4 (`tile_of_point`, decided over the
  64 points).  One point in the body's arithmetic: the accumulator after point n is the accumulate-a-chunk payload of
  what it held before (zeros at chunk 0, else what point n - 1 left) and the point's two blocks of the presence
  matrix; the output tile after a last-chunk point is the similarity payload of the finished accumulator and the
  point's blocks of the two size layouts.
-/
import proofs.«157818_j12704513261820_1_alg».proof.Proof.TilePieces
import Idealize.ShloMosaic.PureOps.Ideal
import Idealize.ShloMosaic.Lib.ValueIdx
import proofs.«157818_j12704513261820_1_alg».proof.Proof.JacSpec

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which tile and chunk each window reads at a point -/

theorem tile_of_point : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-! ## One point, in the body's arithmetic -/

/-- The accumulator after point `n` is the accumulate-a-chunk payload of what it held before (zeros at chunk 0,
    else what point `n - 1` left) and the point's two blocks of the presence matrix. -/
theorem acc_step (c : Dev nD) (n : ℕ) (hn : n < cfg0.N) :
    (outsAt m c n hn).2 = k0_pay2 (if n % 4 = 0 then k0_pay1 (F := F) else (outsAt m c (n - 1) (Nat.lt_of_le_of_lt (Nat.sub_le _ _) hn)).2)
      (iblk m c 0 ⟨n, hn⟩) (iblk m c 1 ⟨n, hn⟩) := by
  by_cases h0 : n % 4 = 0
  · have h3 : ¬n % 4 = 3 := by omega
    rw [if_pos h0, show outsAt m c n hn = outsAt m c (⟨n, hn⟩ : Fin cfg0.N).val (⟨n, hn⟩ : Fin cfg0.N).isLt from rfl,
      outsAt_first m c ⟨n, hn⟩ h0 h3]
    dsimp only
    exact accFirst_eq c (grid0.coords ⟨n, hn⟩) (mA ⟨n, hn⟩) (hA ⟨n, hn⟩) (mB ⟨n, hn⟩) (hB ⟨n, hn⟩) (mC ⟨n, hn⟩) (hC ⟨n, hn⟩) (mR ⟨n, hn⟩) (hR ⟨n, hn⟩) (mO ⟨n, hn⟩) (hO ⟨n, hn⟩) mAcc (Memref.isWhole_whole _) ((isFirst_iff ⟨n, hn⟩).mpr h0) (fun h => h3 ((isLast_iff ⟨n, hn⟩).mp h)) (iblk m c 0 ⟨n, hn⟩) (iblk m c 1 ⟨n, hn⟩) (iblk m c 2 ⟨n, hn⟩) (iblk m c 3 ⟨n, hn⟩)
  · have hz : n ≠ 0 := fun h => h0 (by rw [h])
    rw [if_neg h0, show outsAt m c n hn = outsAt m c (⟨n, hn⟩ : Fin cfg0.N).val (⟨n, hn⟩ : Fin cfg0.N).isLt from rfl,
      outsAt_pos m c ⟨n, hn⟩ hz]
    by_cases h3 : n % 4 = 3
    · rw [stepAt_last m c ⟨n, hn⟩ _ h0 h3]
      dsimp only
      exact accLast_eq c (grid0.coords ⟨n, hn⟩) (mA ⟨n, hn⟩) (hA ⟨n, hn⟩) (mB ⟨n, hn⟩) (hB ⟨n, hn⟩) (mC ⟨n, hn⟩) (hC ⟨n, hn⟩) (mR ⟨n, hn⟩) (hR ⟨n, hn⟩) (mO ⟨n, hn⟩) (hO ⟨n, hn⟩) mAcc (Memref.isWhole_whole _) (fun h => h0 ((isFirst_iff ⟨n, hn⟩).mp h)) ((isLast_iff ⟨n, hn⟩).mpr h3) (iblk m c 0 ⟨n, hn⟩) (iblk m c 1 ⟨n, hn⟩) (iblk m c 2 ⟨n, hn⟩) (iblk m c 3 ⟨n, hn⟩) _
    · rw [stepAt_mid m c ⟨n, hn⟩ _ h0 h3]
      dsimp only
      exact accMid_eq c (grid0.coords ⟨n, hn⟩) (mA ⟨n, hn⟩) (hA ⟨n, hn⟩) (mB ⟨n, hn⟩) (hB ⟨n, hn⟩) (mC ⟨n, hn⟩) (hC ⟨n, hn⟩) (mR ⟨n, hn⟩) (hR ⟨n, hn⟩) (mO ⟨n, hn⟩) (hO ⟨n, hn⟩) mAcc (Memref.isWhole_whole _) (fun h => h0 ((isFirst_iff ⟨n, hn⟩).mp h)) (fun h => h3 ((isLast_iff ⟨n, hn⟩).mp h)) (iblk m c 0 ⟨n, hn⟩) (iblk m c 1 ⟨n, hn⟩) (iblk m c 2 ⟨n, hn⟩) (iblk m c 3 ⟨n, hn⟩) _

/-- The output tile after a last-chunk point is the similarity payload of the finished accumulator and the point's
    blocks of the two size layouts. -/
theorem out_step (c : Dev nD) (n : ℕ) (hn : n < cfg0.N) (h3 : n % 4 = 3) :
    (outsAt m c n hn).1 = k0_pay3 (outsAt m c n hn).2 (iblk m c 2 ⟨n, hn⟩) (iblk m c 3 ⟨n, hn⟩) := by
  have h0 : ¬n % 4 = 0 := by omega
  have hz : n ≠ 0 := fun h => h0 (by rw [h])
  rw [show outsAt m c n hn = outsAt m c (⟨n, hn⟩ : Fin cfg0.N).val (⟨n, hn⟩ : Fin cfg0.N).isLt from rfl,
    outsAt_pos m c ⟨n, hn⟩ hz, stepAt_last m c ⟨n, hn⟩ _ h0 h3]
  dsimp only
  rw [accLast_eq c (grid0.coords ⟨n, hn⟩) (mA ⟨n, hn⟩) (hA ⟨n, hn⟩) (mB ⟨n, hn⟩) (hB ⟨n, hn⟩) (mC ⟨n, hn⟩) (hC ⟨n, hn⟩) (mR ⟨n, hn⟩) (hR ⟨n, hn⟩) (mO ⟨n, hn⟩) (hO ⟨n, hn⟩) mAcc (Memref.isWhole_whole _) (fun h => h0 ((isFirst_iff ⟨n, hn⟩).mp h)) ((isLast_iff ⟨n, hn⟩).mpr h3) (iblk m c 0 ⟨n, hn⟩) (iblk m c 1 ⟨n, hn⟩) (iblk m c 2 ⟨n, hn⟩) (iblk m c 3 ⟨n, hn⟩) _]
  exact outLast_eq c (grid0.coords ⟨n, hn⟩) (mA ⟨n, hn⟩) (hA ⟨n, hn⟩) (mB ⟨n, hn⟩) (hB ⟨n, hn⟩) (mC ⟨n, hn⟩) (hC ⟨n, hn⟩) (mR ⟨n, hn⟩) (hR ⟨n, hn⟩) (mO ⟨n, hn⟩) (hO ⟨n, hn⟩) mAcc (Memref.isWhole_whole _) (fun h => h0 ((isFirst_iff ⟨n, hn⟩).mp h)) ((isLast_iff ⟨n, hn⟩).mpr h3) (iblk m c 0 ⟨n, hn⟩) (iblk m c 1 ⟨n, hn⟩) (iblk m c 2 ⟨n, hn⟩) (iblk m c 3 ⟨n, hn⟩) _

end Cert.KernelIdeal.Tile

end
-- ==== Proof.TileReads.lean ====
/-
  Reading a window's block: entry y of window w's block at point t is the array's entry at the index the block's
  rectangle sends y to; an uncut output block is written back whole; and a tile of an array reads the array at the
  embedded index.  Stated for any float instance, where each is an unfolding of definitions.
-/
import proofs.«157818_j12704513261820_1_alg».proof.Proof.TileSteps

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem blockA_read (c : Dev nD) (t : Fin cfg0.N) (y : S1024x2048.Idx) :
    iblk m c 0 t y = V m c main_v20 (((cfg0.win 0).blk t).view.emb y) := rfl

theorem blockB_read (c : Dev nD) (t : Fin cfg0.N) (y : S1024x2048.Idx) :
    iblk m c 1 t y = V m c main_v20 (((cfg0.win 1).blk t).view.emb y) := rfl

theorem blockCol_read (c : Dev nD) (t : Fin cfg0.N) (y : S1024x1.Idx) :
    iblk m c 2 t y = V m c main_v21 (((cfg0.win 2).blk t).view.emb y) := rfl

theorem blockRow_read (c : Dev nD) (t : Fin cfg0.N) (y : S1x1024.Idx) :
    iblk m c 3 t y = V m c main_v22 (((cfg0.win 3).blk t).view.emb y) := rfl

/-- What a point writes back of the output window is what the body left in its buffer (the block is not cut). -/
theorem flushed_out (c : Dev nD) (t : Fin cfg0.N) : (dats m 0 c).flushed 4 t = (outsAt m c t.val t.isLt).1 := by
  show (cfg0.win 4).cut (grid0.coords t) ((dats m 0 c).after 4 t) = _
  rw [after4]
  rfl

/-- A tile of the result array, read back. -/
theorem tile_read (c : Dev nD) (R : Buf (Elt F) ((c.tc : Thread nD τ).loc main_v23)) (t : Fin cfg0.N) (y : S1024x1024.Idx) :
    ((cfg0.win 4).blk t).view.read (Elt F) R y = R (((cfg0.win 4).blk t).view.emb y) := rfl

end Cert.KernelIdeal.Tile

end
-- ==== Proof.JacGrid.lean ====
/-
  The whole result as ONE function of the presence matrix P [4096, 8192] and the vector of row sizes sz [4096]:
  entry (r, s) is  sim (sz r) (sz s) (∑ v < 8192, P (r, v) · P (s, v)).
  Matrix entries are addressed by natural numbers (`asNat`: the entry inside the matrix, 0 outside), so that a
  tile's entry "row 1024·i + p, column 2048·k + j" is plain arithmetic.
-/
import proofs.«157818_j12704513261820_1_alg».proof.Proof.JacSpec

noncomputable section

namespace Cert.Jaccard

open Idealize.ShloMosaic Idealize.ShloMosaic.ValueIdx

/-- The presence matrix addressed by natural numbers. -/
def asNat (P : (⟨2, ![4096, 8192]⟩ : Shape).Idx → EReal) (r v : ℕ) : EReal :=
  if h : r < 4096 ∧ v < 8192 then P (ix2 ⟨r, h.1⟩ ⟨v, h.2⟩) else 0

theorem asNat_idx (P : (⟨2, ![4096, 8192]⟩ : Shape).Idx → EReal) (i : (⟨2, ![4096, 8192]⟩ : Shape).Idx) :
    P i = asNat P (i 0).val (i 1).val := by
  unfold asNat
  rw [dif_pos ⟨(i 0).isLt, (i 1).isLt⟩]
  exact congrArg P (eq_ix2 i)

/-- The result array. -/
def simGrid (P : (⟨2, ![4096, 8192]⟩ : Shape).Idx → EReal) (sz : (⟨1, ![4096]⟩ : Shape).Idx → EReal) :
    (⟨2, ![4096, 4096]⟩ : Shape).Idx → EReal :=
  fun i => sim (sz (ix1 (i 0))) (sz (ix1 (i 1))) (∑ v : Fin 8192, asNat P (i 0).val v.val * asNat P (i 1).val v.val)

end Cert.Jaccard

end
-- ==== Proof.TileBlocks.lean ====
/-
  The windows' blocks read off the arrays, on the extended reals.  The three arrays the region reads are named once —
  the presence matrix, the column of row sizes, the row of row sizes — and every statement below speaks of those names
  only.  Entry (p, k) of the rows-i window's block at point t = (i, j, kc) is entry (1024·i + p, 2048·kc + k) of the
  presence matrix, and likewise for rows j; so the product of the two blocks at (p, q) is chunk kc of the inner
  product of rows 1024·i + p and 1024·j + q.
-/
import proofs.«157818_j12704513261820_1_alg».proof.Proof.TileReads
import proofs.«157818_j12704513261820_1_alg».proof.Proof.JacGrid

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Jaccard

/-! ## The arrays the region reads -/

/-- The presence matrix as the region finds it. -/
def presK (c : Dev nD) : S4096x8192.Idx → EReal := V m c main_v20
/-- The row sizes as a column … -/
def sizeCol (c : Dev nD) : S4096x1.Idx → EReal := V m c main_v21
/-- … and as a row. -/
def sizeRow (c : Dev nD) : S1x4096.Idx → EReal := V m c main_v22

/-! ## Where a block's entry sits in its array -/

theorem embA (t : Fin cfg0.N) (p : Fin 1024) (k : Fin 2048) :
    ((((cfg0.win 0).blk t).view.emb (ix2 p k)) 0).val = t.val / 16 * 1024 + p.val
    ∧ ((((cfg0.win 0).blk t).view.emb (ix2 p k)) 1).val = t.val % 4 * 2048 + k.val := by
  obtain ⟨e0, e1, -⟩ := tile_of_point t
  constructor
  · show win0_0.index t (0 : Fin 2) * 1024 + 1 * p.val = _
    omega
  · show win0_0.index t (1 : Fin 2) * 2048 + 1 * k.val = _
    omega

theorem embB (t : Fin cfg0.N) (q : Fin 1024) (k : Fin 2048) :
    ((((cfg0.win 1).blk t).view.emb (ix2 q k)) 0).val = t.val / 4 % 4 * 1024 + q.val
    ∧ ((((cfg0.win 1).blk t).view.emb (ix2 q k)) 1).val = t.val % 4 * 2048 + k.val := by
  obtain ⟨-, -, e0, e1, -⟩ := tile_of_point t
  constructor
  · show win0_1.index t (0 : Fin 2) * 1024 + 1 * q.val = _
    omega
  · show win0_1.index t (1 : Fin 2) * 2048 + 1 * k.val = _
    omega

/-- An entry of a [4096, 8192] array at a computed index, addressed by natural numbers. -/
theorem asNat_at (P : S4096x8192.Idx → EReal) (i : S4096x8192.Idx) (r v : ℕ) (h0 : (i 0).val = r) (h1 : (i 1).val = v) :
    P i = asNat P r v := by
  rw [asNat_idx P i, h0, h1]

/-! ## The two blocks of the presence matrix -/

theorem blockA_apply (c : Dev nD) (t : Fin cfg0.N) (p : Fin 1024) (k : Fin 2048) :
    iblk m c 0 t (ix2 p k) = asNat (presK m c) (t.val / 16 * 1024 + p.val) (t.val % 4 * 2048 + k.val) := by
  obtain ⟨h0, h1⟩ := embA t p k
  refine (blockA_read m c t (ix2 p k)).trans ?_
  unfold presK
  generalize V m c main_v20 = P
  exact asNat_at P _ _ _ h0 h1

theorem blockB_apply (c : Dev nD) (t : Fin cfg0.N) (q : Fin 1024) (k : Fin 2048) :
    iblk m c 1 t (ix2 q k) = asNat (presK m c) (t.val / 4 % 4 * 1024 + q.val) (t.val % 4 * 2048 + k.val) := by
  obtain ⟨h0, h1⟩ := embB t q k
  refine (blockB_read m c t (ix2 q k)).trans ?_
  unfold presK
  generalize V m c main_v20 = P
  exact asNat_at P _ _ _ h0 h1

/-- Two blocks whose rows p and q read rows r and s of P over chunk kc: their product at (p, q) is that chunk of the
    rows' inner product. -/
theorem chunk_of (P : ℕ → ℕ → EReal) (xa xb : Vec Ideal S1024x2048 .bf16) (r s kc : ℕ) (p q : Fin 1024)
    (ha : ∀ k : Fin 2048, xa (ix2 p k) = P r (kc * 2048 + k.val))
    (hb : ∀ k : Fin 2048, xb (ix2 q k) = P s (kc * 2048 + k.val)) :
    ∑ k : Fin 2048, xa (ix2 p k) * xb (ix2 q k) = chunkDot P r s kc := by
  unfold chunkDot
  exact Finset.sum_congr rfl fun k _ => by rw [ha k, hb k]

end Cert.KernelIdeal.Tile

end
-- ==== Proof.LibDotRows.lean ====
/-
  A product of two matrices that contracts the SECOND axis of both — out (p, q) = ∑ k, lhs (p, k) · rhs (q, k), the
  left matrix times the transpose of the right one — read entry by entry on the extended reals.

  On the matrix unit, accumulated into the zero array, entry (p, q) of such a product of an [a, K] matrix with a
  [b, K] matrix is the sum over the contracted position k < K of the row's entry times the other row's entry. The
  dimension numbers enter only through four facts about where the contraction reads its operands, each decided by
  unfolding for a literal record: it contracts axis 1 of both operands, and carries the output's row to the left
  operand's row and the output's column to the right operand's row. No finiteness is used.
-/
import Idealize.ShloMosaic.PureOps.Ideal.Laws
import Idealize.ShloMosaic.Lib.ValueIdx

noncomputable section

namespace Idealize.ShloMosaic.DotRows

open Idealize.ShloMosaic Idealize.ShloMosaic.ValueIdx

/-- Entry (p, q) of an [a, K] × [b, K] product contracting both second axes, into the zero accumulator, is the sum
    over the contracted position of the left row's entry times the right row's entry. -/
theorem matmul_zero_rows_ix2 {a K b : ℕ} {φ₁ φ₂ : FTy}
    (d : DotDims (⟨2, ![a, K]⟩ : Shape) (⟨2, ![b, K]⟩ : Shape) (⟨2, ![a, b]⟩ : Shape))
    (hr : d.contr.rank = 1) (hs : d.contr.size ⟨0, by omega⟩ = K)
    (hlc : d.lhsContracting = [1]) (hrc : d.rhsContracting = [1])
    (hl0 : ∀ (j : (⟨2, ![a, b]⟩ : Shape).Idx) (q : d.contr.Idx), (d.lhsIdx j q 0).val = (j 0).val)
    (hr0 : ∀ (j : (⟨2, ![a, b]⟩ : Shape).Idx) (q : d.contr.Idx), (d.rhsIdx j q 0).val = (j 1).val)
    (prec : Option ContractPrecision)
    (lhs : FVec Ideal (⟨2, ![a, K]⟩ : Shape) φ₁) (rhs : FVec Ideal (⟨2, ![b, K]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 q k := funext fun ax => Fin.ext (by
    match ax with
    | ⟨0, _⟩ => exact hr0 _ _
    | ⟨1, _⟩ => exact (d.rhsIdx_val_of_single hrc _ _).trans hk)
  rw [el, er]

end Idealize.ShloMosaic.DotRows

end
-- ==== Proof.TilePayloads.lean ====
/-
  The body's three payloads read at an entry, on the extended reals.

    payload1 (p, q) = 0
    payload2 acc A B (p, q) = acc (p, q) + ∑ k < 2048, A (p, k) · B (q, k)       (row p of A against row q of B)
    payload3 acc c r (p, q) = sim (c (p, 0)) (r (0, q)) (acc (p, q))             (the column of sizes broadcast along
                                                                                  rows, the row of sizes along columns)
-/
import proofs.«157818_j12704513261820_1_alg».proof.Proof.Gen.KernelIdeal.Skeleton
import proofs.«157818_j12704513261820_1_alg».proof.Proof.LibDotRows
import proofs.«157818_j12704513261820_1_alg».proof.Proof.JacSpec
import Idealize.ShloMosaic.Lib.Pipeline.Value
import Idealize.ShloMosaic.Lib.ValueIdx

set_option maxRecDepth 16384

noncomputable section

namespace Cert.KernelIdeal.Tile

open Idealize.ShloMosaic Idealize.ShloMosaic.ValueIdx Cert.KernelIdeal.Gen Cert.Jaccard

theorem pay1_apply (j : S1024x1024.Idx) : k0_pay1 (F := Ideal) j = fzero := by
  unfold k0_pay1
  simp only [shapeCast_self]
  rfl

/-- The tile product carries an output row to the same row of its left operand … -/
theorem dot_left_row (j : S1024x1024.Idx) (q : dot_S1024x2048_S1024x2048_S1024x1024_1_1_0_0_n_n.contr.Idx) :
    (dot_S1024x2048_S1024x2048_S1024x1024_1_1_0_0_n_n.lhsIdx j q 0).val = (j 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl

/-- … and an output column to that ROW of its right operand (the right operand is used transposed). -/
theorem dot_right_row (j : S1024x1024.Idx) (q : dot_S1024x2048_S1024x2048_S1024x1024_1_1_0_0_n_n.contr.Idx) :
    (dot_S1024x2048_S1024x2048_S1024x1024_1_1_0_0_n_n.rhsIdx j q 0).val = (j 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl

theorem pay2_apply (acc : Vec Ideal S1024x1024 .f32) (xa xb : Vec Ideal S1024x2048 .bf16) (p q : Fin 1024) :
    k0_pay2 acc xa xb (ix2 p q) = acc (ix2 p q) + ∑ k : Fin 2048, xa (ix2 p k) * xb (ix2 q k) := by
  unfold k0_pay2
  simp only [shapeCast_self]
  refine (addf_apply _ _ _).trans ?_
  exact congrArg (acc (ix2 p q) + ·)
    (DotRows.matmul_zero_rows_ix2 dot_S1024x2048_S1024x2048_S1024x1024_1_1_0_0_n_n rfl rfl rfl rfl dot_left_row dot_right_row none xa xb p q)

theorem pay3_apply (acc : Vec Ideal S1024x1024 .f32) (xc : Vec Ideal S1024x1 .f32) (xr : Vec Ideal S1x1024 .f32) (p q : Fin 1024) :
    k0_pay3 acc xc xr (ix2 p q) = sim (xc (ix2 p (0 : Fin 1))) (xr (ix2 (0 : Fin 1) q)) (acc (ix2 p q)) := by
  have ec : broadcastTo S1024x1024 xc broadcasts_S1024x1_S1024x1024 (ix2 p q) = xc (ix2 p (0 : Fin 1)) :=
    broadcastTo_apply xc broadcasts_S1024x1_S1024x1024 (ix2 p q) (ix2 p (0 : Fin 1)) (fun a => match a with
      | ⟨0, _⟩ => by show p.val = if (1024 : Nat) = 1 then 0 else p.val; rw [if_neg (by decide)]
      | ⟨1, _⟩ => by show (0 : Nat) = if (1 : Nat) = 1 then 0 else q.val; rw [if_pos rfl])
  have er : broadcastTo S1024x1024 xr broadcasts_S1x1024_S1024x1024 (ix2 p q) = xr (ix2 (0 : Fin 1) q) :=
    broadcastTo_apply xr broadcasts_S1x1024_S1024x1024 (ix2 p q) (ix2 (0 : Fin 1) q) (fun a => match a with
      | ⟨0, _⟩ => by show (0 : Nat) = if (1 : Nat) = 1 then 0 else p.val; rw [if_pos rfl]
      | ⟨1, _⟩ => by show q.val = if (1024 : Nat) = 1 then 0 else q.val; rw [if_neg (by decide)])
  unfold k0_pay3
  simp only [shapeCast_self]
  simp only [select_apply, cmpf_apply, divf_apply, subf_apply, addf_apply, broadcast_apply, ec, er]
  rw [sim, ← fzero_sub]
  rfl

end Cert.KernelIdeal.Tile

end
-- ==== Proof.TileAcc.lean ====
/-
  The accumulator, point by point, on the extended reals.  By induction on the point t = (i, j, k) the accumulator
  after point t holds, at (p, q), the partial inner product of rows 1024·i + p and 1024·j + q of the presence matrix
  over chunks 0 … k, formed as zero plus chunk 0 plus chunk 1 …: at k = 0 the run stores zeros and adds chunk 0; at
  k > 0 it adds chunk k to what point t - 1 — the same tile, chunk k - 1 — left.
-/
import proofs.«157818_j12704513261820_1_alg».proof.Proof.TileBlocks
import proofs.«157818_j12704513261820_1_alg».proof.Proof.TilePayloads

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Jaccard

/-- One step of the accumulation, over variables: zero plus chunk 0, or the previous partial sum plus the next chunk. -/
theorem partial_step (P : ℕ → ℕ → EReal) (r s n : ℕ) (prev : EReal)
    (hprev : ¬n % 4 = 0 → prev = partialDot P r s ((n - 1) % 4)) (h0 : n % 4 = 0 → prev = fzero) :
    prev + chunkDot P r s (n % 4) = partialDot P r s (n % 4) := by
  by_cases hz : n % 4 = 0
  · rw [h0 hz, fzero_add, hz]
    show _ = 0 + chunkDot P r s 0
    rw [zero_add]
  · have e3 : n % 4 = (n - 1) % 4 + 1 := by omega
    rw [hprev hz, e3]
    rfl

theorem acc_at (c : Dev nD) : ∀ (n : ℕ) (hn : n < cfg0.N) (p q : Fin 1024),
    (outsAt m c n hn).2 (ix2 p q)
      = partialDot (asNat (presK m c)) (n / 16 * 1024 + p.val) (n / 4 % 4 * 1024 + q.val) (n % 4) := by
  intro n
  induction n using Nat.strong_induction_on with
  | _ n ih =>
    intro hn p q
    have hs := congrFun (acc_step m c n hn) (ix2 p q)
    have hp := pay2_apply (if n % 4 = 0 then k0_pay1 (F := Ideal) else (outsAt m c (n - 1) (Nat.lt_of_le_of_lt (Nat.sub_le _ _) hn)).2)
      (iblk m c 0 ⟨n, hn⟩) (iblk m c 1 ⟨n, hn⟩) p q
    have hc := chunk_of (asNat (presK m c)) (iblk m c 0 ⟨n, hn⟩) (iblk m c 1 ⟨n, hn⟩) (n / 16 * 1024 + p.val) (n / 4 % 4 * 1024 + q.val)
      (n % 4) p q (fun k => blockA_apply m c ⟨n, hn⟩ p k) (fun k => blockB_apply m c ⟨n, hn⟩ q k)
    refine hs.trans (hp.trans ?_)
    rw [hc]
    refine partial_step (asNat (presK m c)) (n / 16 * 1024 + p.val) (n / 4 % 4 * 1024 + q.val) n _ ?_ ?_
    · intro hz
      rw [if_neg hz, ih (n - 1) (by omega) _ p q]
      have e1 : (n - 1) / 16 = n / 16 := by omega
      have e2 : (n - 1) / 4 % 4 = n / 4 % 4 := by omega
      rw [e1, e2]
    · intro hz
      rw [if_pos hz]
      exact pay1_apply _

end Cert.KernelIdeal.Tile

end
-- ==== Proof.TileResult.lean ====
/-
  The kernel's result array.  At k = 3 the accumulator is the whole inner product of the two rows, and the tile written
  back is the similarity of the two rows from their sizes (the blocks of the two size layouts) and that inner
  product.  The 16 tiles written back cover the result array, so it ends as ONE function of the presence matrix and
  the two size layouts: `result`.
-/
import proofs.«157818_j12704513261820_1_alg».proof.Proof.TileLaunch
import proofs.«157818_j12704513261820_1_alg».proof.Proof.TileAcc

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Jaccard

/-! ## The result -/

/-- The result array as one function of the arrays the region finds: the presence matrix and the two layouts of
    the row sizes. -/
def result (c : Dev nD) : S4096x4096.Idx → EReal :=
  fun i => sim (sizeCol m c (ix2 (i 0) (0 : Fin 1))) (sizeRow m c (ix2 (0 : Fin 1) (i 1)))
    (∑ v : Fin 8192, asNat (presK m c) (i 0).val v.val * asNat (presK m c) (i 1).val v.val)

/-- Where an entry of a tile sits in the result array. -/
theorem embO (t : Fin cfg0.N) (p q : Fin 1024) :
    ((((cfg0.win 4).blk t).view.emb (ix2 p q)) 0).val = t.val / 16 * 1024 + p.val
    ∧ ((((cfg0.win 4).blk t).view.emb (ix2 p q)) 1).val = t.val / 4 % 4 * 1024 + q.val := by
  obtain ⟨-, -, -, -, -, -, -, -, e40, e41⟩ := tile_of_point t
  constructor
  · show win0_4.index t (0 : Fin 2) * 1024 + 1 * p.val = _
    omega
  · show win0_4.index t (1 : Fin 2) * 1024 + 1 * q.val = _
    omega

/-- The column-of-sizes block's entry for row p of the tile is the size of the row the tile's entry lands on. -/
theorem embCol (t : Fin cfg0.N) (p q : Fin 1024) :
    ((cfg0.win 2).blk t).view.emb (ix2 p (0 : Fin 1)) = ix2 ((((cfg0.win 4).blk t).view.emb (ix2 p q)) 0) (0 : Fin 1) := by
  obtain ⟨-, -, -, -, e20, e21, -⟩ := tile_of_point t
  obtain ⟨r0, -⟩ := embO t p q
  funext a
  apply Fin.ext
  match a with
  | ⟨0, _⟩ =>
    show win0_2.index t (0 : Fin 2) * 1024 + 1 * p.val = ((((cfg0.win 4).blk t).view.emb (ix2 p q)) 0).val
    rw [r0]; omega
  | ⟨1, _⟩ =>
    show win0_2.index t (1 : Fin 2) * 1 + 1 * 0 = 0
    omega

/-- The row-of-sizes block's entry for column q of the tile, likewise. -/
theorem embRow (t : Fin cfg0.N) (p q : Fin 1024) :
    ((cfg0.win 3).blk t).view.emb (ix2 (0 : Fin 1) q) = ix2 (0 : Fin 1) ((((cfg0.win 4).blk t).view.emb (ix2 p q)) 1) := by
  obtain ⟨-, -, -, -, -, -, e30, e31, -⟩ := tile_of_point t
  obtain ⟨-, r1⟩ := embO t p q
  funext a
  apply Fin.ext
  match a with
  | ⟨0, _⟩ =>
    show win0_3.index t (0 : Fin 2) * 1 + 1 * 0 = 0
    omega
  | ⟨1, _⟩ =>
    show win0_3.index t (1 : Fin 2) * 1024 + 1 * q.val = ((((cfg0.win 4).blk t).view.emb (ix2 p q)) 1).val
    rw [r1]; omega

/-- Entry (p, q) of the tile a last-chunk point stores is the entry of `result` it will land on. -/
theorem tile_entry (c : Dev nD) (t : Fin cfg0.N) (h3 : t.val % 4 = 3) (p q : Fin 1024) :
    k0_pay3 (outsAt m c t.val t.isLt).2 (iblk m c 2 t) (iblk m c 3 t) (ix2 p q)
      = result m c (((cfg0.win 4).blk t).view.emb (ix2 p q)) := by
  obtain ⟨r0, r1⟩ := embO t p q
  have hc : iblk m c 2 t (ix2 p (0 : Fin 1)) = sizeCol m c (ix2 ((((cfg0.win 4).blk t).view.emb (ix2 p q)) 0) (0 : Fin 1)) := by
    refine (blockCol_read m c t (ix2 p (0 : Fin 1))).trans ?_
    unfold sizeCol
    rw [embCol t p q]
    rfl
  have hr : iblk m c 3 t (ix2 (0 : Fin 1) q) = sizeRow m c (ix2 (0 : Fin 1) ((((cfg0.win 4).blk t).view.emb (ix2 p q)) 1)) := by
    refine (blockRow_read m c t (ix2 (0 : Fin 1) q)).trans ?_
    unfold sizeRow
    rw [embRow t p q]
    rfl
  refine (pay3_apply (outsAt m c t.val t.isLt).2 (iblk m c 2 t) (iblk m c 3 t) p q).trans ?_
  rw [acc_at m c t.val t.isLt p q, h3, partialDot_three, hc, hr]
  unfold result
  rw [r0, r1]

/-- What a last-chunk point writes back is its tile of `result`. -/
theorem flushed_eq (c : Dev nD) (t : Fin cfg0.N) (h3 : t.val % 4 = 3) :
    (dats m 0 c).flushed 4 t = ((cfg0.win 4).blk t).view.read (Elt Ideal) (result m c) := by
  rw [flushed_out m c t, out_step m c t.val t.isLt h3]
  funext y
  obtain ⟨p, q, rfl⟩ : ∃ (p : Fin 1024) (q : Fin 1024), y = ix2 p q := ⟨y 0, y 1, eq_ix2 y⟩
  exact (tile_entry m c t h3 p q).trans (tile_read (F := Ideal) c (result m c) t (ix2 p q)).symm

/-- An index of the result array is in point `t`'s tile iff each coordinate is in the tile's range. -/
theorem mem_tile (t : Fin cfg0.N) (i : S4096x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v23).slice (win0_4.rect t)).set ↔ _
  rw [View.set_slice_whole, Rect.mem_set_unit]
  exact Iff.rfl

/-- Every entry of the result array lies in the tile some last-chunk point writes back. -/
theorem tiles_cover (i : S4096x4096.Idx) :
    ∃ t : Fin cfg0.N, (cfg0.win 4).flush t = true ∧ i ∈ ((cfg0.win 4).blk t).view.set := by
  have h0 : (i 0).val < 4096 := (i 0).isLt
  have h1 : (i 1).val < 4096 := (i 1).isLt
  have hN : cfg0.N = 64 := N_0
  have hlt : (i 0).val / 1024 * 16 + (i 1).val / 1024 * 4 + 3 < cfg0.N := by omega
  refine ⟨⟨(i 0).val / 1024 * 16 + (i 1).val / 1024 * 4 + 3, hlt⟩, ?_, ?_⟩
  · exact (flush0_4 _).mpr (by show ((i 0).val / 1024 * 16 + (i 1).val / 1024 * 4 + 3) % 4 = 3; omega)
  · rw [mem_tile]
    obtain ⟨-, -, -, -, -, -, -, -, e40, e41⟩ := tile_of_point ⟨(i 0).val / 1024 * 16 + (i 1).val / 1024 * 4 + 3, hlt⟩
    intro a
    match a with
    | ⟨0, _⟩ =>
      show win0_4.index _ (0 : Fin 2) * 1024 ≤ (i 0).val ∧ (i 0).val < win0_4.index _ (0 : Fin 2) * 1024 + 1024
      rw [e40]
      show ((i 0).val / 1024 * 16 + (i 1).val / 1024 * 4 + 3) / 16 * 1024 ≤ (i 0).val
        ∧ (i 0).val < ((i 0).val / 1024 * 16 + (i 1).val / 1024 * 4 + 3) / 16 * 1024 + 1024
      omega
    | ⟨1, _⟩ =>
      show win0_4.index _ (1 : Fin 2) * 1024 ≤ (i 1).val ∧ (i 1).val < win0_4.index _ (1 : Fin 2) * 1024 + 1024
      rw [e41]
      show ((i 0).val / 1024 * 16 + (i 1).val / 1024 * 4 + 3) / 4 % 4 * 1024 ≤ (i 1).val
        ∧ (i 1).val < ((i 0).val / 1024 * 16 + (i 1).val / 1024 * 4 + 3) / 4 % 4 * 1024 + 1024
      omega

/-- The result array after the run. -/
theorem final (c : Dev nD) : (dats m 0 c).arrAt 4 cfg0.N = result m c :=
  (dats m 0 c).arrAt_eq_of_cover 4 (result m c) (fun t hf => flushed_eq m c t ((flush0_4 t).mp hf)) tiles_cover

/-- The run, read: the result buffer ends at `result`, the argument as launched. -/
theorem value_run : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)) :=
  (θ_run defs _ _).mono (fun _ h c => ⟨((h c).1 4).trans (final m c),
      ((h c).2 main_arg0 (Pipeline.mem_restRefs_of main_arg0 rfl (by decide))).trans (V_main_arg0 m c)⟩)
    (run_main m ρ)

end Cert.KernelIdeal.Tile

end
-- ==== Proof.HostSide.lean ====
/-
  The host prefix.  Before the region both programs apply the same operations to the argument: they build the index
  pairs (row, code), scatter ones into a zero [4096, 8192] matrix and sum its rows.  So the arrays the kernel's region
  reads are the reference's stages of the same argument: the presence matrix (narrowed to bf16, which changes nothing
  at the ideal instance and is a format change at any other) and the row sums in two layouts, [4096, 1] and [1, 4096].
-/
import proofs.«157818_j12704513261820_1_alg».proof.Proof.TileLaunch
import proofs.«157818_j12704513261820_1_alg».proof.Proof.RefReadP

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option maxRecDepth 16384 in
theorem presence_host (c : Dev nD) :
    V m c main_v20 = truncf .bf16 (Cert.ReferenceIdeal.ReadP.val_main_v18 (F := F) (m ((c.tc : Thread nD τ).loc main_arg0))) bitsLt_bf16_f32 := by
  dsimp only [V, V0, hostOps0]
  after_results_simp
  rfl

set_option maxHeartbeats 4000000 in
set_option maxRecDepth 16384 in
theorem sizes_col_host (c : Dev nD) :
    V m c main_v21 = shapeCast S4096x1 (Cert.ReferenceIdeal.ReadP.val_main_v21 (F := F) (m ((c.tc : Thread nD τ).loc main_arg0))) shapeCasts_S4096_S4096x1 := by
  dsimp only [V, V0, hostOps0]
  after_results_simp
  rfl

set_option maxHeartbeats 4000000 in
set_option maxRecDepth 16384 in
theorem sizes_row_host (c : Dev nD) :
    V m c main_v22 = shapeCast S1x4096 (Cert.ReferenceIdeal.ReadP.val_main_v21 (F := F) (m ((c.tc : Thread nD τ).loc main_arg0))) shapeCasts_S4096_S1x4096 := by
  dsimp only [V, V0, hostOps0]
  after_results_simp
  rfl

end Cert.KernelIdeal.Tile

end
-- ==== Proof.Bridge.lean ====
/-
  The kernel's result in the reference's terms.  The arrays the region reads are the reference's stages of the same
  argument (the host prefix), narrowing to bf16 is the identity on the extended reals, and the two reshapes of the
  vector of row sums read it at the row, respectively the column, of the entry: so the kernel's result array is
  `simGrid` of the reference's presence matrix and row sums.
-/
import proofs.«157818_j12704513261820_1_alg».proof.Proof.TileResult
import proofs.«157818_j12704513261820_1_alg».proof.Proof.HostSide

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Jaccard

/-- An entry of the presence matrix the region reads is the reference's. -/
theorem presK_apply (c : Dev nD) (i : S4096x8192.Idx) : presK m c i = Cert.ReferenceIdeal.ReadP.val_main_v18 (F := Ideal) (m ((c.tc : Thread nD τ).loc main_arg0)) i := by
  refine (congrFun (presence_host m c) i).trans ?_
  generalize Cert.ReferenceIdeal.ReadP.val_main_v18 (F := Ideal) (m ((c.tc : Thread nD τ).loc main_arg0)) = P
  exact truncf_apply P bitsLt_bf16_f32 i

theorem presK_eq (c : Dev nD) : presK m c = Cert.ReferenceIdeal.ReadP.val_main_v18 (F := Ideal) (m ((c.tc : Thread nD τ).loc main_arg0)) :=
  funext (presK_apply m c)

/-- A vector read through its [n, 1] reshape at (r, 0) … -/
theorem column_of_vector (sz : S4096.Idx → EReal) (r : Fin 4096) :
    shapeCast S4096x1 sz shapeCasts_S4096_S4096x1 (ix2 r (0 : Fin 1)) = sz (ix1 r) :=
  shapeCast_apply sz shapeCasts_S4096_S4096x1 (ix2 r (0 : Fin 1)) (ix1 r) (by
    rw [Shape.rowMajor_val_one, Shape.rowMajor_val_two]
    show r.val = r.val * 1 + 0
    omega)

/-- … and through its [1, n] reshape at (0, s). -/
theorem row_of_vector (sz : S4096.Idx → EReal) (s : Fin 4096) :
    shapeCast S1x4096 sz shapeCasts_S4096_S1x4096 (ix2 (0 : Fin 1) s) = sz (ix1 s) :=
  shapeCast_apply sz shapeCasts_S4096_S1x4096 (ix2 (0 : Fin 1) s) (ix1 s) (by
    rw [Shape.rowMajor_val_one, Shape.rowMajor_val_two]
    show s.val = 0 * 4096 + s.val
    omega)

theorem sizeCol_eq (c : Dev nD) (r : Fin 4096) :
    sizeCol m c (ix2 r (0 : Fin 1)) = Cert.ReferenceIdeal.ReadP.val_main_v21 (F := Ideal) (m ((c.tc : Thread nD τ).loc main_arg0)) (ix1 r) := by
  refine (congrFun (sizes_col_host m c) (ix2 r (0 : Fin 1))).trans ?_
  generalize Cert.ReferenceIdeal.ReadP.val_main_v21 (F := Ideal) (m ((c.tc : Thread nD τ).loc main_arg0)) = sz
  exact column_of_vector sz r

theorem sizeRow_eq (c : Dev nD) (s : Fin 4096) :
    sizeRow m c (ix2 (0 : Fin 1) s) = Cert.ReferenceIdeal.ReadP.val_main_v21 (F := Ideal) (m ((c.tc : Thread nD τ).loc main_arg0)) (ix1 s) := by
  refine (congrFun (sizes_row_host m c) (ix2 (0 : Fin 1) s)).trans ?_
  generalize Cert.ReferenceIdeal.ReadP.val_main_v21 (F := Ideal) (m ((c.tc : Thread nD τ).loc main_arg0)) = sz
  exact row_of_vector sz s

/-- The kernel's result array is the reference's function of the same argument. -/
theorem result_eq (c : Dev nD) :
    result m c = simGrid (Cert.ReferenceIdeal.ReadP.val_main_v18 (F := Ideal) (m ((c.tc : Thread nD τ).loc main_arg0))) (Cert.ReferenceIdeal.ReadP.val_main_v21 (F := Ideal) (m ((c.tc : Thread nD τ).loc main_arg0))) := by
  funext i
  unfold result simGrid
  rw [sizeCol_eq m c (i 0), sizeRow_eq m c (i 1), presK_eq m c]

end Cert.KernelIdeal.Tile

end
-- ==== Proof.RefSide.lean ====
/-
  The reference program's result, read entry by entry on the extended reals: with P the presence matrix the
  scatter builds and sz its row sums, entry (r, s) is  sim (sz r) (sz s) (∑ v, P (r, v) · P (s, v)) — the inner
  product written as P times its transpose, the numerator as a negation, the two size layouts as broadcasts of the
  one vector of row sums.
-/
import proofs.«157818_j12704513261820_1_alg».proof.Proof.RefReadP
import proofs.«157818_j12704513261820_1_alg».proof.Proof.JacGrid

set_option maxRecDepth 16384

noncomputable section

namespace Cert.ReferenceIdeal.RefValue

open Cert.ReferenceIdeal Cert.ReferenceIdeal.Gen Cert.ReferenceIdeal.ReadP Idealize.ShloMosaic Idealize.ShloMosaic.ValueIdx Cert.Jaccard

variable (x0 : (⟨S4096x256, .i32⟩ : BufTy).Contents (Elt Ideal))

/-- P times its transpose at (r, s) is the inner product of rows r and s. -/
theorem inter_apply (i : S4096x4096.Idx) :
    val_main_v20 (F := Ideal) x0 i
      = ∑ v : Fin 8192, asNat (val_main_v18 (F := Ideal) x0) (i 0).val v.val * asNat (val_main_v18 (F := Ideal) x0) (i 1).val v.val := by
  rw [val_main_v20_apply]
  refine Finset.sum_congr rfl fun k _ => ?_
  rw [val_main_v19_apply]
  exact congrArg₂ (· * ·) (asNat_idx (val_main_v18 (F := Ideal) x0) (lidx_main_v20 i k))
    (asNat_idx (val_main_v18 (F := Ideal) x0) (idx_main_v19 (ridx_main_v20 i k)))

/-- The column of sizes broadcast along rows reads the size of the entry's row … -/
theorem sizeRowOf_apply (i : S4096x4096.Idx) :
    val_main_v24 (F := Ideal) x0 i = val_main_v21 (F := Ideal) x0 (ix1 (i 0)) := by
  rw [val_main_v24_apply, val_main_v22_apply]
  exact congrArg (val_main_v21 (F := Ideal) x0) (funext fun a => Fin.ext (by
    match a with
    | ⟨0, _⟩ => rfl))

/-- … and the row of sizes broadcast along columns the size of the entry's column. -/
theorem sizeColOf_apply (i : S4096x4096.Idx) :
    val_main_v25 (F := Ideal) x0 i = val_main_v21 (F := Ideal) x0 (ix1 (i 1)) := by
  rw [val_main_v25_apply, val_main_v23_apply]
  exact congrArg (val_main_v21 (F := Ideal) x0) (funext fun a => Fin.ext (by
    match a with
    | ⟨0, _⟩ => rfl))

/-- The union's size at an entry. -/
theorem union_apply (i : S4096x4096.Idx) :
    val_main_v27 (F := Ideal) x0 i
      = val_main_v21 (F := Ideal) x0 (ix1 (i 0)) + val_main_v21 (F := Ideal) x0 (ix1 (i 1))
        - ∑ v : Fin 8192, asNat (val_main_v18 (F := Ideal) x0) (i 0).val v.val * asNat (val_main_v18 (F := Ideal) x0) (i 1).val v.val := by
  rw [val_main_v27_apply, val_main_v26_apply, sizeRowOf_apply, sizeColOf_apply, inter_apply]
  rfl

theorem zeroA_apply (i : S4096x4096.Idx) : val_main_v28 (F := Ideal) i = fzero := by
  rw [val_main_v28_apply, val_main_cst_5_apply]; rfl
theorem zeroB_apply (i : S4096x4096.Idx) : val_main_v31 (F := Ideal) i = fzero := by
  rw [val_main_v31_apply, val_main_cst_6_apply]; rfl
theorem one_apply (i : S4096x4096.Idx) : val_main_call0_v1 (F := Ideal) i = fone := by
  rw [val_main_call0_v1_apply, val_main_call0_v0_apply, val_main_cst_7_apply]; rfl
theorem zeroC_apply (i : S4096x4096.Idx) : val_main_call1_v1 (F := Ideal) i = fzero := by
  rw [val_main_call1_v1_apply, val_main_call1_v0_apply, val_main_cst_8_apply]; rfl

/-- The reference's result is `simGrid` of its presence matrix and its vector of row sums. -/
theorem result_eq :
    val_main_v35 (F := Ideal) x0 = simGrid (val_main_v18 (F := Ideal) x0) (val_main_v21 (F := Ideal) x0) := by
  funext i
  rw [val_main_v35_apply, val_main_v29_apply, val_main_v34_apply, val_main_v30_apply, val_main_v33_apply,
    val_main_v32_apply, union_apply, inter_apply, zeroA_apply, zeroB_apply, one_apply, zeroC_apply]
  rfl

end Cert.ReferenceIdeal.RefValue

end
-- ==== Proof.lean ====
/-
  The certificate of the pairwise-similarity kernel against its reference, on the extended reals.

  Both programs build the same 0/1 presence matrix P [4096, 8192] from the integer codes (a scatter of ones into zeros)
  and its row sums sz.  The reference forms  n = P · Pᵀ  in one product and returns, entry by entry,
  -n / (sz r + sz s - n)  where that union is not zero and 0 where it is.  The kernel tiles the result 4 x 4, cuts the
  8192 codes into four chunks, accumulates the four partial products of a tile in a scratch buffer (zeroed at the
  first chunk) and turns the accumulator into the tile at the last chunk, with the numerator written 0 - n.  On the
  extended reals addition is commutative and associative and 0 - n = -n, so the two results are one function of the
  argument — no finiteness is used.

  The frames: each program runs to the end, faults nowhere and leaves the argument as launched.  The kernel reads ONE
  array (the bf16 presence matrix) through two windows, so the launch splits that buffer's share in two halves; the
  accumulator's contents are carried by the region's invariant from point to point.  Nothing was rewritten by the
  ideal pass, so the idealization claim is trivially true.
-/
import proofs.«157818_j12704513261820_1_alg».proof.Defs
import proofs.«157818_j12704513261820_1_alg».proof.Proof.KTileLaunch
import proofs.«157818_j12704513261820_1_alg».proof.Proof.Bridge
import proofs.«157818_j12704513261820_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Tile.frame m ρ

theorem frame_kernel_ideal : Cert.frame_KernelIdeal := fun m ρ _ => Cert.KernelIdeal.Tile.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the argument both idealized programs end with the same result array: the reference's
    function (`simGrid` of its presence matrix and row sums) of the argument. -/
theorem algebraic : Cert.algebraic_KernelIdeal_ReferenceIdeal := by
  intro m ρ m' ρ' _ hagree
  refine ⟨fun c => Cert.Jaccard.simGrid
      (Cert.ReferenceIdeal.ReadP.val_main_v18 (F := Ideal) (m ((c.tc : Thread Cert.KernelIdeal.nD Cert.KernelIdeal.τ).loc Cert.KernelIdeal.main_arg0)))
      (Cert.ReferenceIdeal.ReadP.val_main_v21 (F := Ideal) (m ((c.tc : Thread Cert.KernelIdeal.nD Cert.KernelIdeal.τ).loc Cert.KernelIdeal.main_arg0))), ?_, ?_⟩
  · exact (θ_run Cert.KernelIdeal.defs _ _).mono
      (fun _ h c => ⟨(h c).1.trans (Cert.KernelIdeal.Tile.result_eq m c), (h c).2⟩) (Cert.KernelIdeal.Tile.value_run m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v35_eq, Cert.ReferenceIdeal.RefValue.result_eq, hagree c]

theorem claim : Cert.Claim := ⟨Cert.Kernel.Gen.facts, Cert.KernelIdeal.Gen.facts, Cert.ReferenceIdeal.Gen.facts,
  frame_kernel, frame_kernel_ideal, frame_reference, preserves, algebraic⟩

end Cert.Proof

end
